-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x17 : Shape := ⟨3, ![4, 100, 17]⟩
abbrev S4x100x256x256 : Shape := ⟨4, ![4, 100, 256, 256]⟩
abbrev S4x16 : Shape := ⟨2, ![4, 16]⟩
abbrev S4x16x256x256 : Shape := ⟨4, ![4, 16, 256, 256]⟩
abbrev S_ : Shape := ⟨0, ![]⟩

class Facts : Prop where
  bcast_S_S4x100x17 : S_.BroadcastsInDim S4x100x17 (![] : Fin 0 → Fin S4x100x17.rank)
  reducesTo_S4x100x17_S_d0_1_2 : S4x100x17.ReducesTo [0, 1, 2] S_
  h_S_ : 0 < S_.numel
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x16x256x256 : S_.BroadcastsInDim S4x16x256x256 (![] : Fin 0 → Fin S4x16x256x256.rank)
  reducesTo_S4x16x256x256_S_d0_1_2_3 : S4x16x256x256.ReducesTo [0, 1, 2, 3] S_

variable [Facts]

def fn {F : FTy → Type} [FloatOps F] (main_arg0 : FVec F S4x100x17 .f32) (main_arg1 : FVec F S4x100x256x256 .f32) (main_arg2 : IVec S4x16 32) (main_arg3 : FVec F S4x16x256x256 .f32) (main_arg4 : IVec S4x16 1) : IVec S_ 1 :=
  let main_v0 : FVec F S4x100x17 .f32 := Host.absf main_arg0
  let main_cst : FVec F S_ .f32 := constant S_ .f32 0x7F800000#32
  let main_v1 : FVec F S4x100x17 .f32 := broadcastInDim S4x100x17 ![] bcast_S_S4x100x17 main_cst
  let main_v2 : IVec S4x100x17 1 := cmpf .olt main_v0 main_v1
  let main_c : IVec S_ 1 := constantI S_ 1 1#1
  let main_v3 : IVec S_ 1 := (fun x v => Host.reduce IntOp.andi x v reducesTo_S4x100x17_S_d0_1_2 h_S_) main_v2 main_c
  let main_v4 : FVec F S4x100x256x256 .f32 := Host.absf main_arg1
  let main_cst_0 : FVec F S_ .f32 := constant S_ .f32 0x7F800000#32
  let main_v5 : FVec F S4x100x256x256 .f32 := broadcastInDim S4x100x256x256 ![] bcast_S_S4x100x256x256 main_cst_0
  let main_v6 : IVec S4x100x256x256 1 := cmpf .olt main_v4 main_v5
  let main_c_1 : IVec S_ 1 := constantI S_ 1 1#1
  let main_v7 : IVec S_ 1 := (fun x v => Host.reduce IntOp.andi x v reducesTo_S4x100x256x256_S_d0_1_2_3 h_S_) main_v6 main_c_1
  let main_v8 : IVec S_ 1 := andi main_v3 main_v7
  let main_v9 : FVec F S4x16x256x256 .f32 := Host.absf main_arg3
  let main_cst_2 : FVec F S_ .f32 := constant S_ .f32 0x7F800000#32
  let main_v10 : FVec F S4x16x256x256 .f32 := broadcastInDim S4x16x256x256 ![] bcast_S_S4x16x256x256 main_cst_2
  let main_v11 : IVec S4x16x256x256 1 := cmpf .olt main_v9 main_v10
  let main_c_3 : IVec S_ 1 := constantI S_ 1 1#1
  let main_v12 : IVec S_ 1 := (fun x v => Host.reduce IntOp.andi x v reducesTo_S4x16x256x256_S_d0_1_2_3 h_S_) main_v11 main_c_3
  let main_v13 : IVec S_ 1 := andi main_v8 main_v12
  main_v13
-- ==== Kernel.lean ====
abbrev S4x100x17 : Shape := ⟨3, ![4, 100, 17]⟩
abbrev S4x100x256x256 : Shape := ⟨4, ![4, 100, 256, 256]⟩
abbrev S4x16 : Shape := ⟨2, ![4, 16]⟩
abbrev S4x16x256x256 : Shape := ⟨4, ![4, 16, 256, 256]⟩
abbrev S_ : Shape := ⟨0, ![]⟩
abbrev S4x100 : Shape := ⟨2, ![4, 100]⟩
abbrev S4x100x1 : Shape := ⟨3, ![4, 100, 1]⟩
abbrev S4x100x16 : Shape := ⟨3, ![4, 100, 16]⟩
abbrev S4x1x16 : Shape := ⟨3, ![4, 1, 16]⟩
abbrev S4x100x16x1 : Shape := ⟨4, ![4, 100, 16, 1]⟩
abbrev S1 : Shape := ⟨1, ![1]⟩
abbrev S1x1x1x1 : Shape := ⟨4, ![1, 1, 1, 1]⟩
abbrev S4x100x65536 : Shape := ⟨3, ![4, 100, 65536]⟩
abbrev S4x16x65536 : Shape := ⟨3, ![4, 16, 65536]⟩
abbrev S4x16x1 : Shape := ⟨3, ![4, 16, 1]⟩
abbrev S1x100x8192 : Shape := ⟨3, ![1, 100, 8192]⟩
abbrev S1x16x8192 : Shape := ⟨3, ![1, 16, 8192]⟩
abbrev S1x100x16 : Shape := ⟨3, ![1, 100, 16]⟩
abbrev S1x100x1 : Shape := ⟨3, ![1, 100, 1]⟩
abbrev S1x16x1 : Shape := ⟨3, ![1, 16, 1]⟩
abbrev S100x16 : Shape := ⟨2, ![100, 16]⟩
abbrev S100x1 : Shape := ⟨2, ![100, 1]⟩
abbrev S16x1 : Shape := ⟨2, ![16, 1]⟩
abbrev S100x8192 : Shape := ⟨2, ![100, 8192]⟩
abbrev S16x8192 : Shape := ⟨2, ![16, 8192]⟩
abbrev S100 : Shape := ⟨1, ![100]⟩
abbrev S16 : Shape := ⟨1, ![16]⟩

abbrev nBuf : Space → Nat
  | .hbm => 92
  | .vmem => 10
  | .smem => 0
  | _ => 0

abbrev bufTy : (tb : Table) → Fin (tcTables nBuf tb) → BufTy
  | .hbm, ⟨0, _⟩ => ⟨S4x100x17, .f32⟩
  | .hbm, ⟨1, _⟩ => ⟨S4x100x256x256, .f32⟩
  | .hbm, ⟨2, _⟩ => ⟨S4x16, .i32⟩
  | .hbm, ⟨3, _⟩ => ⟨S4x16x256x256, .f32⟩
  | .hbm, ⟨4, _⟩ => ⟨S4x16, .i1⟩
  | .hbm, ⟨5, _⟩ => ⟨S_, .f32⟩
  | .hbm, ⟨6, _⟩ => ⟨S4x100, .f32⟩
  | .hbm, ⟨7, _⟩ => ⟨S_, .f32⟩
  | .hbm, ⟨8, _⟩ => ⟨S4x100, .f32⟩
  | .hbm, ⟨9, _⟩ => ⟨S4x100, .f32⟩
  | .hbm, ⟨10, _⟩ => ⟨S4x100x1, .f32⟩
  | .hbm, ⟨11, _⟩ => ⟨S4x100x17, .f32⟩
  | .hbm, ⟨12, _⟩ => ⟨S4x100x17, .f32⟩
  | .hbm, ⟨13, _⟩ => ⟨S4x100x17, .f32⟩
  | .hbm, ⟨14, _⟩ => ⟨S_, .f32⟩
  | .hbm, ⟨15, _⟩ => ⟨S4x100, .f32⟩
  | .hbm, ⟨16, _⟩ => ⟨S4x100x1, .f32⟩
  | .hbm, ⟨17, _⟩ => ⟨S4x100x17, .f32⟩
  | .hbm, ⟨18, _⟩ => ⟨S4x100x17, .f32⟩
  | .hbm, ⟨19, _⟩ => ⟨S4x100x16, .f32⟩
  | .hbm, ⟨20, _⟩ => ⟨S4x1x16, .i32⟩
  | .hbm, ⟨21, _⟩ => ⟨S4x100x16, .i32⟩
  | .hbm, ⟨22, _⟩ => ⟨S_, .i32⟩
  | .hbm, ⟨23, _⟩ => ⟨S4x100x16, .i32⟩
  | .hbm, ⟨24, _⟩ => ⟨S4x100x16, .i1⟩
  | .hbm, ⟨25, _⟩ => ⟨S_, .i32⟩
  | .hbm, ⟨26, _⟩ => ⟨S4x100x16, .i32⟩
  | .hbm, ⟨27, _⟩ => ⟨S4x100x16, .i32⟩
  | .hbm, ⟨28, _⟩ => ⟨S4x100x16, .i32⟩
  | .hbm, ⟨29, _⟩ => ⟨S4x100x16x1, .i32⟩
  | .hbm, ⟨30, _⟩ => ⟨S1, .i32⟩
  | .hbm, ⟨31, _⟩ => ⟨S_, .i32⟩
  | .hbm, ⟨32, _⟩ => ⟨S4x100x16x1, .i32⟩
  | .hbm, ⟨33, _⟩ => ⟨S4x100x16x1, .i1⟩
  | .hbm, ⟨34, _⟩ => ⟨S1x1x1x1, .i32⟩
  | .hbm, ⟨35, _⟩ => ⟨S4x100x16x1, .i32⟩
  | .hbm, ⟨36, _⟩ => ⟨S4x100x16x1, .i1⟩
  | .hbm, ⟨37, _⟩ => ⟨S4x100x16x1, .i1⟩
  | .hbm, ⟨38, _⟩ => ⟨S_, .i1⟩
  | .hbm, ⟨39, _⟩ => ⟨S4x100x16, .i1⟩
  | .hbm, ⟨40, _⟩ => ⟨S4x100x16, .f32⟩
  | .hbm, ⟨41, _⟩ => ⟨S_, .f32⟩
  | .hbm, ⟨42, _⟩ => ⟨S4x100x16, .f32⟩
  | .hbm, ⟨43, _⟩ => ⟨S4x100x16, .f32⟩
  | .hbm, ⟨44, _⟩ => ⟨S4x100x16, .f32⟩
  | .hbm, ⟨45, _⟩ => ⟨S4x100x65536, .f32⟩
  | .hbm, ⟨46, _⟩ => ⟨S4x16x65536, .f32⟩
  | .hbm, ⟨47, _⟩ => ⟨S4x100x16, .f32⟩
  | .hbm, ⟨48, _⟩ => ⟨S4x100x1, .f32⟩
  | .hbm, ⟨49, _⟩ => ⟨S4x16x1, .f32⟩
  | .hbm, ⟨50, _⟩ => ⟨S4x1x16, .f32⟩
  | .hbm, ⟨51, _⟩ => ⟨S4x100x16, .f32⟩
  | .hbm, ⟨52, _⟩ => ⟨S4x100x16, .f32⟩
  | .hbm, ⟨53, _⟩ => ⟨S4x100x16, .f32⟩
  | .hbm, ⟨54, _⟩ => ⟨S4x100x16, .f32⟩
  | .hbm, ⟨55, _⟩ => ⟨S_, .f32⟩
  | .hbm, ⟨56, _⟩ => ⟨S4x100x16, .f32⟩
  | .hbm, ⟨57, _⟩ => ⟨S4x100x16, .f32⟩
  | .hbm, ⟨58, _⟩ => ⟨S4x100x16, .f32⟩
  | .hbm, ⟨59, _⟩ => ⟨S_, .f32⟩
  | .hbm, ⟨60, _⟩ => ⟨S4x100x16, .f32⟩
  | .hbm, ⟨61, _⟩ => ⟨S4x100x16, .f32⟩
  | .hbm, ⟨62, _⟩ => ⟨S_, .f32⟩
  | .hbm, ⟨63, _⟩ => ⟨S4x100x16, .f32⟩
  | .hbm, ⟨64, _⟩ => ⟨S4x100x16, .f32⟩
  | .hbm, ⟨65, _⟩ => ⟨S4x100x16, .f32⟩
  | .hbm, ⟨66, _⟩ => ⟨S4x100x16, .f32⟩
  | .hbm, ⟨67, _⟩ => ⟨S4x100x16, .f32⟩
  | .hbm, ⟨68, _⟩ => ⟨S_, .f32⟩
  | .hbm, ⟨69, _⟩ => ⟨S4x100x16, .f32⟩
  | .hbm, ⟨70, _⟩ => ⟨S4x100x16, .f32⟩
  | .hbm, ⟨71, _⟩ => ⟨S4x100x16, .f32⟩
  | .hbm, ⟨72, _⟩ => ⟨S_, .f32⟩
  | .hbm, ⟨73, _⟩ => ⟨S4x100x16, .f32⟩
  | .hbm, ⟨74, _⟩ => ⟨S4x100x16, .f32⟩
  | .hbm, ⟨75, _⟩ => ⟨S_, .f32⟩
  | .hbm, ⟨76, _⟩ => ⟨S4x100x16, .f32⟩
  | .hbm, ⟨77, _⟩ => ⟨S4x100x16, .f32⟩
  | .hbm, ⟨78, _⟩ => ⟨S_, .f32⟩
  | .hbm, ⟨79, _⟩ => ⟨S4x100x16, .f32⟩
  | .hbm, ⟨80, _⟩ => ⟨S4x100x16, .f32⟩
  | .hbm, ⟨81, _⟩ => ⟨S4x100x16, .f32⟩
  | .hbm, ⟨82, _⟩ => ⟨S_, .f32⟩
  | .hbm, ⟨83, _⟩ => ⟨S4x100x16, .f32⟩
  | .hbm, ⟨84, _⟩ => ⟨S4x100x16, .f32⟩
  | .hbm, ⟨85, _⟩ => ⟨S4x100x16, .f32⟩
  | .hbm, ⟨86, _⟩ => ⟨S4x1x16, .i1⟩
  | .hbm, ⟨87, _⟩ => ⟨S_, .f32⟩
  | .hbm, ⟨88, _⟩ => ⟨S_, .f32⟩
  | .hbm, ⟨89, _⟩ => ⟨S4x100x16, .i1⟩
  | .hbm, ⟨90, _⟩ => ⟨S4x100x16, .f32⟩
  | .hbm, ⟨91, _⟩ => ⟨S4x100x16, .f32⟩
  | .local _ .vmem, ⟨0, _⟩ => ⟨S1x100x8192, .f32⟩
  | .local _ .vmem, ⟨1, _⟩ => ⟨S1x100x8192, .f32⟩
  | .local _ .vmem, ⟨2, _⟩ => ⟨S1x16x8192, .f32⟩
  | .local _ .vmem, ⟨3, _⟩ => ⟨S1x16x8192, .f32⟩
  | .local _ .vmem, ⟨4, _⟩ => ⟨S1x100x16, .f32⟩
  | .local _ .vmem, ⟨5, _⟩ => ⟨S1x100x16, .f32⟩
  | .local _ .vmem, ⟨6, _⟩ => ⟨S1x100x1, .f32⟩
  | .local _ .vmem, ⟨7, _⟩ => ⟨S1x100x1, .f32⟩
  | .local _ .vmem, ⟨8, _⟩ => ⟨S1x16x1, .f32⟩
  | .local _ .vmem, ⟨9, _⟩ => ⟨S1x16x1, .f32⟩
  | _, _ => ⟨S4x100x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18_0 : Ref sig .tc := ⟨.hbm, 47, rfl⟩
abbrev main_v18_1 : Ref sig .tc := ⟨.hbm, 48, rfl⟩
abbrev main_v18_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_3 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_v38 : Ref sig .tc := ⟨.hbm, 74, rfl⟩
abbrev main_cst_7 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_10 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v48 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x100x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4x100x17_S4x100_d2 : S4x100x17.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x17_0_1_2 : S4x100x1.BroadcastsInDim S4x100x17 (![0, 1, 2] : Fin 3 → Fin S4x100x17.rank)
  slices_S4x100x17_S4x100x16_0_0_0 : S4x100x17.Slices ![0, 0, 0] S4x100x16
  bcast_S4x16_S4x1x16_0_2 : S4x16.BroadcastsInDim S4x1x16 (![0, 2] : Fin 2 → Fin S4x1x16.rank)
  bcast_S4x1x16_S4x100x16_0_1_2 : S4x1x16.BroadcastsInDim S4x100x16 (![0, 1, 2] : Fin 3 → Fin S4x100x16.rank)
  bcast_S_S4x100x16 : S_.BroadcastsInDim S4x100x16 (![] : Fin 0 → Fin S4x100x16.rank)
  shapeCasts_S4x100x16_S4x100x16x1 : S4x100x16.ShapeCasts S4x100x16x1
  bcast_S_S4x100x16x1 : S_.BroadcastsInDim S4x100x16x1 (![] : Fin 0 → Fin S4x100x16x1.rank)
  bcast_S1_S1x1x1x1_3 : S1.BroadcastsInDim S1x1x1x1 (![3] : Fin 1 → Fin S1x1x1x1.rank)
  bcast_S1x1x1x1_S4x100x16x1_0_1_2_3 : S1x1x1x1.BroadcastsInDim S4x100x16x1 (![0, 1, 2, 3] : Fin 4 → Fin S4x100x16x1.rank)
  reducesTo_S4x100x16x1_S4x100x16_d3 : S4x100x16x1.ReducesTo [3] S4x100x16
  shapeCasts_S4x100x256x256_S4x100x65536 : S4x100x256x256.ShapeCasts S4x100x65536
  shapeCasts_S4x16x256x256_S4x16x65536 : S4x16x256x256.ShapeCasts S4x16x65536
  inb_S1x100x16_S1x100x16_0_0_0 : ∀ a, (![0, 0, 0] : Fin 3 → Nat) a + S1x100x16.size a ≤ S1x100x16.size a
  h_S1x100x16 : 0 < S1x100x16.numel
  shapeCasts_S1x100x16_S100x16 : S1x100x16.ShapeCasts S100x16
  shapeCasts_S100x16_S1x100x16 : S100x16.ShapeCasts S1x100x16
  inb_S1x100x1_S1x100x1_0_0_0 : ∀ a, (![0, 0, 0] : Fin 3 → Nat) a + S1x100x1.size a ≤ S1x100x1.size a
  h_S1x100x1 : 0 < S1x100x1.numel
  shapeCasts_S1x100x1_S100x1 : S1x100x1.ShapeCasts S100x1
  shapeCasts_S100x1_S1x100x1 : S100x1.ShapeCasts S1x100x1
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S1x100x8192_S1x100x8192_0_0_0 : ∀ a, (![0, 0, 0] : Fin 3 → Nat) a + S1x100x8192.size a ≤ S1x100x8192.size a
  h_S1x100x8192 : 0 < S1x100x8192.numel
  shapeCasts_S1x100x8192_S100x8192 : S1x100x8192.ShapeCasts S100x8192
  inb_S1x16x8192_S1x16x8192_0_0_0 : ∀ a, (![0, 0, 0] : Fin 3 → Nat) a + S1x16x8192.size a ≤ S1x16x8192.size a
  h_S1x16x8192 : 0 < S1x16x8192.numel
  shapeCasts_S1x16x8192_S16x8192 : S1x16x8192.ShapeCasts S16x8192
  bitsLt_bf16_f32 : FTy.bits .bf16 < FTy.bits .f32
  reduces_S100x8192_S100 : S100x8192.Reduces [1] S100
  shapeCasts_S100_S100x1 : S100.ShapeCasts S100x1
  reduces_S16x8192_S16 : S16x8192.Reduces [1] S16
  shapeCasts_S16_S16x1 : S16.ShapeCasts S16x1
  transposes_S4x16x1_S4x1x16_0_2_1 : S4x16x1.Transposes [0, 2, 1] S4x1x16
  bcast_S4x100x1_S4x100x16_0_1_2 : S4x100x1.BroadcastsInDim S4x100x16 (![0, 1, 2] : Fin 3 → Fin S4x100x16.rank)
  gather_S4x100x16_S4x100x16x1_S4x100x16_n_2_01_01_2_3_111_wf : GatherDims.WF S4x100x16 S4x100x16x1 S4x100x16 [] [2] [0, 1] [2] [0, 1] 3 ![1, 1, 1]
  dot_S100x8192_S16x8192_S100x16_1_1_0_0_n_n_wf : DotDims.WF S100x8192 S16x8192 S100x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x8192.size a ≤ S4x100x65536.size a
  hwx0_0 : ∀ i : grid0.Coords, EltTy.bits .f32 = 32 ∨ (Rect.block (s := S4x100x65536) S1x100x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x8192.size a ≤ S4x16x65536.size a
  hwx0_1 : ∀ i : grid0.Coords, EltTy.bits .f32 = 32 ∨ (Rect.block (s := S4x16x65536) S1x16x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x16.size a ≤ S4x100x16.size a
  hwx0_2 : ∀ i : grid0.Coords, EltTy.bits .f32 = 32 ∨ (Rect.block (s := S4x100x16) S1x100x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x1.size a ≤ S4x100x1.size a
  hwx0_3 : ∀ i : grid0.Coords, EltTy.bits .f32 = 32 ∨ (Rect.block (s := S4x100x1) S1x100x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S4x16x1.size a
  hwx0_4 : ∀ i : grid0.Coords, EltTy.bits .f32 = 32 ∨ (Rect.block (s := S4x16x1) S1x16x1.size (cc0_transform_4 i) (hinb0_4 i)).WholeWords (EltTy.packing .f32)

variable [Facts₀]

def gather_S4x100x16_S4x100x16x1_S4x100x16_n_2_01_01_2_3_111 : GatherDims S4x100x16 S4x100x16x1 S4x100x16 where
  offsetDims := []
  collapsedSliceDims := [2]
  operandBatchingDims := [0, 1]
  startIndicesBatchingDims := [0, 1]
  startIndexMap := [2]
  indexVectorDim := 3
  sliceSizes := ![1, 1, 1]
  wf := gather_S4x100x16_S4x100x16x1_S4x100x16_n_2_01_01_2_3_111_wf
def dot_S100x8192_S16x8192_S100x16_1_1_0_0_n_n : DotDims S100x8192 S16x8192 S100x16 where
  lhsContracting := [1]
  rhsContracting := [1]
  lhsNonContracting := [0]
  rhsNonContracting := [0]
  lhsBatch := []
  rhsBatch := []
  wf := dot_S100x8192_S16x8192_S100x16_1_1_0_0_n_n_wf

abbrev win0_0 : Pipeline.Window sig grid0 :=
  Pipeline.Window.ofSpec (Memref.whole main_v16) S1x100x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x16x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18_0) S1x100x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_1) S1x100x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_2) S1x16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x100x17 : Shape := ⟨3, ![4, 100, 17]⟩
abbrev S4x100x256x256 : Shape := ⟨4, ![4, 100, 256, 256]⟩
abbrev S4x16 : Shape := ⟨2, ![4, 16]⟩
abbrev S4x16x256x256 : Shape := ⟨4, ![4, 16, 256, 256]⟩
abbrev S_ : Shape := ⟨0, ![]⟩
abbrev S4x100 : Shape := ⟨2, ![4, 100]⟩
abbrev S4x100x1 : Shape := ⟨3, ![4, 100, 1]⟩
abbrev S4x100x16 : Shape := ⟨3, ![4, 100, 16]⟩
abbrev S4x1x16 : Shape := ⟨3, ![4, 1, 16]⟩
abbrev S4x100x16x1 : Shape := ⟨4, ![4, 100, 16, 1]⟩
abbrev S1 : Shape := ⟨1, ![1]⟩
abbrev S1x1x1x1 : Shape := ⟨4, ![1, 1, 1, 1]⟩
abbrev S4x100x65536 : Shape := ⟨3, ![4, 100, 65536]⟩
abbrev S4x16x65536 : Shape := ⟨3, ![4, 16, 65536]⟩

abbrev nBuf : Space → Nat
  | .hbm => 103
  | .vmem => 0
  | .smem => 0
  | _ => 0

abbrev bufTy : (tb : Table) → Fin (tcTables nBuf tb) → BufTy
  | .hbm, ⟨0, _⟩ => ⟨S4x100x17, .f32⟩
  | .hbm, ⟨1, _⟩ => ⟨S4x100x256x256, .f32⟩
  | .hbm, ⟨2, _⟩ => ⟨S4x16, .i32⟩
  | .hbm, ⟨3, _⟩ => ⟨S4x16x256x256, .f32⟩
  | .hbm, ⟨4, _⟩ => ⟨S4x16, .i1⟩
  | .hbm, ⟨5, _⟩ => ⟨S_, .f32⟩
  | .hbm, ⟨6, _⟩ => ⟨S4x100, .f32⟩
  | .hbm, ⟨7, _⟩ => ⟨S_, .f32⟩
  | .hbm, ⟨8, _⟩ => ⟨S4x100, .f32⟩
  | .hbm, ⟨9, _⟩ => ⟨S4x100, .f32⟩
  | .hbm, ⟨10, _⟩ => ⟨S4x100x1, .f32⟩
  | .hbm, ⟨11, _⟩ => ⟨S4x100x17, .f32⟩
  | .hbm, ⟨12, _⟩ => ⟨S4x100x17, .f32⟩
  | .hbm, ⟨13, _⟩ => ⟨S4x100x17, .f32⟩
  | .hbm, ⟨14, _⟩ => ⟨S_, .f32⟩
  | .hbm, ⟨15, _⟩ => ⟨S4x100, .f32⟩
  | .hbm, ⟨16, _⟩ => ⟨S4x100x1, .f32⟩
  | .hbm, ⟨17, _⟩ => ⟨S4x100x17, .f32⟩
  | .hbm, ⟨18, _⟩ => ⟨S4x100x17, .f32⟩
  | .hbm, ⟨19, _⟩ => ⟨S4x100x16, .f32⟩
  | .hbm, ⟨20, _⟩ => ⟨S4x1x16, .i32⟩
  | .hbm, ⟨21, _⟩ => ⟨S4x100x16, .i32⟩
  | .hbm, ⟨22, _⟩ => ⟨S_, .i32⟩
  | .hbm, ⟨23, _⟩ => ⟨S4x100x16, .i32⟩
  | .hbm, ⟨24, _⟩ => ⟨S4x100x16, .i1⟩
  | .hbm, ⟨25, _⟩ => ⟨S_, .i32⟩
  | .hbm, ⟨26, _⟩ => ⟨S4x100x16, .i32⟩
  | .hbm, ⟨27, _⟩ => ⟨S4x100x16, .i32⟩
  | .hbm, ⟨28, _⟩ => ⟨S4x100x16, .i32⟩
  | .hbm, ⟨29, _⟩ => ⟨S4x100x16x1, .i32⟩
  | .hbm, ⟨30, _⟩ => ⟨S1, .i32⟩
  | .hbm, ⟨31, _⟩ => ⟨S_, .i32⟩
  | .hbm, ⟨32, _⟩ => ⟨S4x100x16x1, .i32⟩
  | .hbm, ⟨33, _⟩ => ⟨S4x100x16x1, .i1⟩
  | .hbm, ⟨34, _⟩ => ⟨S1x1x1x1, .i32⟩
  | .hbm, ⟨35, _⟩ => ⟨S4x100x16x1, .i32⟩
  | .hbm, ⟨36, _⟩ => ⟨S4x100x16x1, .i1⟩
  | .hbm, ⟨37, _⟩ => ⟨S4x100x16x1, .i1⟩
  | .hbm, ⟨38, _⟩ => ⟨S_, .i1⟩
  | .hbm, ⟨39, _⟩ => ⟨S4x100x16, .i1⟩
  | .hbm, ⟨40, _⟩ => ⟨S4x100x16, .f32⟩
  | .hbm, ⟨41, _⟩ => ⟨S_, .f32⟩
  | .hbm, ⟨42, _⟩ => ⟨S4x100x16, .f32⟩
  | .hbm, ⟨43, _⟩ => ⟨S4x100x16, .f32⟩
  | .hbm, ⟨44, _⟩ => ⟨S4x100x16, .f32⟩
  | .hbm, ⟨45, _⟩ => ⟨S4x100x256x256, .f32⟩
  | .hbm, ⟨46, _⟩ => ⟨S4x100x256x256, .f32⟩
  | .hbm, ⟨47, _⟩ => ⟨S_, .f32⟩
  | .hbm, ⟨48, _⟩ => ⟨S4x100x256x256, .f32⟩
  | .hbm, ⟨49, _⟩ => ⟨S4x100x256x256, .f32⟩
  | .hbm, ⟨50, _⟩ => ⟨S_, .f32⟩
  | .hbm, ⟨51, _⟩ => ⟨S4x100x256x256, .f32⟩
  | .hbm, ⟨52, _⟩ => ⟨S4x100x256x256, .f32⟩
  | .hbm, ⟨53, _⟩ => ⟨S4x100x65536, .f32⟩
  | .hbm, ⟨54, _⟩ => ⟨S4x16x65536, .f32⟩
  | .hbm, ⟨55, _⟩ => ⟨S4x100x16, .f32⟩
  | .hbm, ⟨56, _⟩ => ⟨S_, .f32⟩
  | .hbm, ⟨57, _⟩ => ⟨S4x100, .f32⟩
  | .hbm, ⟨58, _⟩ => ⟨S4x100x1, .f32⟩
  | .hbm, ⟨59, _⟩ => ⟨S_, .f32⟩
  | .hbm, ⟨60, _⟩ => ⟨S4x16, .f32⟩
  | .hbm, ⟨61, _⟩ => ⟨S4x1x16, .f32⟩
  | .hbm, ⟨62, _⟩ => ⟨S4x100x16, .f32⟩
  | .hbm, ⟨63, _⟩ => ⟨S4x100x16, .f32⟩
  | .hbm, ⟨64, _⟩ => ⟨S4x100x16, .f32⟩
  | .hbm, ⟨65, _⟩ => ⟨S4x100x16, .f32⟩
  | .hbm, ⟨66, _⟩ => ⟨S_, .f32⟩
  | .hbm, ⟨67, _⟩ => ⟨S4x100x16, .f32⟩
  | .hbm, ⟨68, _⟩ => ⟨S4x100x16, .f32⟩
  | .hbm, ⟨69, _⟩ => ⟨S4x100x16, .f32⟩
  | .hbm, ⟨70, _⟩ => ⟨S_, .f32⟩
  | .hbm, ⟨71, _⟩ => ⟨S4x100x16, .f32⟩
  | .hbm, ⟨72, _⟩ => ⟨S4x100x16, .f32⟩
  | .hbm, ⟨73, _⟩ => ⟨S_, .f32⟩
  | .hbm, ⟨74, _⟩ => ⟨S4x100x16, .f32⟩
  | .hbm, ⟨75, _⟩ => ⟨S4x100x16, .f32⟩
  | .hbm, ⟨76, _⟩ => ⟨S4x100x16, .f32⟩
  | .hbm, ⟨77, _⟩ => ⟨S4x100x16, .f32⟩
  | .hbm, ⟨78, _⟩ => ⟨S4x100x16, .f32⟩
  | .hbm, ⟨79, _⟩ => ⟨S_, .f32⟩
  | .hbm, ⟨80, _⟩ => ⟨S4x100x16, .f32⟩
  | .hbm, ⟨81, _⟩ => ⟨S4x100x16, .f32⟩
  | .hbm, ⟨82, _⟩ => ⟨S4x100x16, .f32⟩
  | .hbm, ⟨83, _⟩ => ⟨S_, .f32⟩
  | .hbm, ⟨84, _⟩ => ⟨S4x100x16, .f32⟩
  | .hbm, ⟨85, _⟩ => ⟨S4x100x16, .f32⟩
  | .hbm, ⟨86, _⟩ => ⟨S_, .f32⟩
  | .hbm, ⟨87, _⟩ => ⟨S4x100x16, .f32⟩
  | .hbm, ⟨88, _⟩ => ⟨S4x100x16, .f32⟩
  | .hbm, ⟨89, _⟩ => ⟨S_, .f32⟩
  | .hbm, ⟨90, _⟩ => ⟨S4x100x16, .f32⟩
  | .hbm, ⟨91, _⟩ => ⟨S4x100x16, .f32⟩
  | .hbm, ⟨92, _⟩ => ⟨S4x100x16, .f32⟩
  | .hbm, ⟨93, _⟩ => ⟨S_, .f32⟩
  | .hbm, ⟨94, _⟩ => ⟨S4x100x16, .f32⟩
  | .hbm, ⟨95, _⟩ => ⟨S4x100x16, .f32⟩
  | .hbm, ⟨96, _⟩ => ⟨S4x100x16, .f32⟩
  | .hbm, ⟨97, _⟩ => ⟨S4x1x16, .i1⟩
  | .hbm, ⟨98, _⟩ => ⟨S_, .f32⟩
  | .hbm, ⟨99, _⟩ => ⟨S_, .f32⟩
  | .hbm, ⟨100, _⟩ => ⟨S4x100x16, .i1⟩
  | .hbm, ⟨101, _⟩ => ⟨S4x100x16, .f32⟩
  | .hbm, ⟨102, _⟩ => ⟨S4x100x16, .f32⟩
  | _, _ => ⟨S4x100x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_cst_11 : Ref sig .tc := ⟨.hbm, 86, rfl⟩
abbrev main_v48 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_13 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_14 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v57 : Ref sig .tc := ⟨.hbm, 102, rfl⟩

abbrev nD : Nat := 1
abbrev τ : Topo := Topo.v7x

variable {F : FTy → Type} [FloatOps F]

class Facts₀ : Prop where
  reducesTo_S4x100x17_S4x100_d2 : S4x100x17.ReducesTo [2] S4x100
  h_S_ : 0 < S_.numel
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S4x100x1_S4x100x17_0_1_2 : S4x100x1.BroadcastsInDim S4x100x17 (![0, 1, 2] : Fin 3 → Fin S4x100x17.rank)
  slices_S4x100x17_S4x100x16_0_0_0 : S4x100x17.Slices ![0, 0, 0] S4x100x16
  bcast_S4x16_S4x1x16_0_2 : S4x16.BroadcastsInDim S4x1x16 (![0, 2] : Fin 2 → Fin S4x1x16.rank)
  bcast_S4x1x16_S4x100x16_0_1_2 : S4x1x16.BroadcastsInDim S4x100x16 (![0, 1, 2] : Fin 3 → Fin S4x100x16.rank)
  bcast_S_S4x100x16 : S_.BroadcastsInDim S4x100x16 (![] : Fin 0 → Fin S4x100x16.rank)
  shapeCasts_S4x100x16_S4x100x16x1 : S4x100x16.ShapeCasts S4x100x16x1
  bcast_S_S4x100x16x1 : S_.BroadcastsInDim S4x100x16x1 (![] : Fin 0 → Fin S4x100x16x1.rank)
  bcast_S1_S1x1x1x1_3 : S1.BroadcastsInDim S1x1x1x1 (![3] : Fin 1 → Fin S1x1x1x1.rank)
  bcast_S1x1x1x1_S4x100x16x1_0_1_2_3 : S1x1x1x1.BroadcastsInDim S4x100x16x1 (![0, 1, 2, 3] : Fin 4 → Fin S4x100x16x1.rank)
  reducesTo_S4x100x16x1_S4x100x16_d3 : S4x100x16x1.ReducesTo [3] S4x100x16
  bcast_S_S4x100x256x256 : S_.BroadcastsInDim S4x100x256x256 (![] : Fin 0 → Fin S4x100x256x256.rank)
  shapeCasts_S4x100x256x256_S4x100x65536 : S4x100x256x256.ShapeCasts S4x100x65536
  shapeCasts_S4x16x256x256_S4x16x65536 : S4x16x256x256.ShapeCasts S4x16x65536
  reducesTo_S4x100x65536_S4x100_d2 : S4x100x65536.ReducesTo [2] S4x100
  reducesTo_S4x16x65536_S4x16_d2 : S4x16x65536.ReducesTo [2] S4x16
  bcast_S4x100x1_S4x100x16_0_1_2 : S4x100x1.BroadcastsInDim S4x100x16 (![0, 1, 2] : Fin 3 → Fin S4x100x16.rank)
  gather_S4x100x16_S4x100x16x1_S4x100x16_n_2_01_01_2_3_111_wf : GatherDims.WF S4x100x16 S4x100x16x1 S4x100x16 [] [2] [0, 1] [2] [0, 1] 3 ![1, 1, 1]
  dot_S4x100x65536_S4x16x65536_S4x100x16_2_2_1_1_0_0_wf : DotDims.WF S4x100x65536 S4x16x65536 S4x100x16 [2] [2] [1] [1] [0] [0]

variable [Facts₀]

def gather_S4x100x16_S4x100x16x1_S4x100x16_n_2_01_01_2_3_111 : GatherDims S4x100x16 S4x100x16x1 S4x100x16 where
  offsetDims := []
  collapsedSliceDims := [2]
  operandBatchingDims := [0, 1]
  startIndicesBatchingDims := [0, 1]
  startIndexMap := [2]
  indexVectorDim := 3
  sliceSizes := ![1, 1, 1]
  wf := gather_S4x100x16_S4x100x16x1_S4x100x16_n_2_01_01_2_3_111_wf
def dot_S4x100x65536_S4x16x65536_S4x100x16_2_2_1_1_0_0 : DotDims S4x100x65536 S4x16x65536 S4x100x16 where
  lhsContracting := [2]
  rhsContracting := [2]
  lhsNonContracting := [1]
  rhsNonContracting := [1]
  lhsBatch := [0]
  rhsBatch := [0]
  wf := dot_S4x100x65536_S4x16x65536_S4x100x16_2_2_1_1_0_0_wf

class Facts : Prop extends Facts₀ where

variable [Facts]
-- ==== Proof.Carried.lean ====
import proofs.«177019_j33672543601174_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! # What one grid step leaves in the three running blocks

The body keeps three running blocks across the eight steps of a batch row: the pairwise products summed so far
(`[1,100,16]`), the row sums of the sigmoid so far (`[1,100,1]`) and the row sums of the targets so far (`[1,16,1]`).
A step that is not the first of its batch row adds this step's partial sums to what the step before left; the first
step of a batch row first stores zeros and then adds to those zeros. Reading back the body's stores in each of the
two cases, each running block after a step is the step's update applied to the block before it (or to the zero
block). -/

namespace Cert.KernelIdeal.Carried
open Cert.KernelIdeal Cert.KernelIdeal.Gen

variable {F : FTy → Type} [FloatOps F]

theorem hz3 : (![0, 0, 0] : Fin 3 → Nat) = fun _ => 0 := funext fun a => by fin_cases a <;> rfl

/-- A later step: the products block becomes the update of the block the step before left. -/
theorem later_both (c : Dev nD) (i : grid0.Coords) (a2 : Memref sig .tc .vmem S1x100x8192 .f32) (h2 : a2.IsWhole)
    (a3 : Memref sig .tc .vmem S1x16x8192 .f32) (h3 : a3.IsWhole) (a4 : Memref sig .tc .vmem S1x100x16 .f32) (h4 : a4.IsWhole)
    (a5 : Memref sig .tc .vmem S1x100x1 .f32) (h5 : a5.IsWhole) (a6 : Memref sig .tc .vmem S1x16x1 .f32) (h6 : a6.IsWhole)
    (hc : ¬cond0_0 i) (x0 : Vec F S1x100x8192 .f32) (x1 : Vec F S1x16x8192 .f32) (xo2 : Vec F S1x100x16 .f32)
    (xo3 : Vec F S1x100x1 .f32) (xo4 : Vec F S1x16x1 .f32) :
    out0_B_2 c i a2 h2 a3 h3 a4 h4 a5 h5 a6 h6 hc x0 x1 xo2 xo3 xo4 = k0_pay7 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  rw [View.canon_unit_zero hz3]
  simp only [View.readAt_eq_ld, h2.read_unread, h3.read_unread, h4.read_unread, h5.read_unread, h6.read_unread,
    View.ld_unit_zero (S := S1x100x8192) hz3, View.ld_unit_zero (S := S1x16x8192) hz3, View.ld_unit_zero (S := S1x100x16) hz3,
    View.ld_unit_zero (S := S1x100x1) hz3, View.ld_unit_zero (S := S1x16x1) hz3]

/-- A later step: the sigmoid row sums become the update of what the step before left. -/
theorem later_pred (c : Dev nD) (i : grid0.Coords) (a2 : Memref sig .tc .vmem S1x100x8192 .f32) (h2 : a2.IsWhole)
    (a3 : Memref sig .tc .vmem S1x16x8192 .f32) (h3 : a3.IsWhole) (a4 : Memref sig .tc .vmem S1x100x16 .f32) (h4 : a4.IsWhole)
    (a5 : Memref sig .tc .vmem S1x100x1 .f32) (h5 : a5.IsWhole) (a6 : Memref sig .tc .vmem S1x16x1 .f32) (h6 : a6.IsWhole)
    (hc : ¬cond0_0 i) (x0 : Vec F S1x100x8192 .f32) (x1 : Vec F S1x16x8192 .f32) (xo2 : Vec F S1x100x16 .f32)
    (xo3 : Vec F S1x100x1 .f32) (xo4 : Vec F S1x16x1 .f32) :
    out0_B_3 c i a2 h2 a3 h3 a4 h4 a5 h5 a6 h6 hc x0 x1 xo2 xo3 xo4 = k0_pay8 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  rw [View.canon_unit_zero hz3]
  simp only [View.readAt_eq_ld, h2.read_unread, h3.read_unread, h4.read_unread, h5.read_unread, h6.read_unread,
    View.ld_unit_zero (S := S1x100x8192) hz3, View.ld_unit_zero (S := S1x16x8192) hz3, View.ld_unit_zero (S := S1x100x16) hz3,
    View.ld_unit_zero (S := S1x100x1) hz3, View.ld_unit_zero (S := S1x16x1) hz3]

/-- A later step: the target row sums become the update of what the step before left. -/
theorem later_tgt (c : Dev nD) (i : grid0.Coords) (a2 : Memref sig .tc .vmem S1x100x8192 .f32) (h2 : a2.IsWhole)
    (a3 : Memref sig .tc .vmem S1x16x8192 .f32) (h3 : a3.IsWhole) (a4 : Memref sig .tc .vmem S1x100x16 .f32) (h4 : a4.IsWhole)
    (a5 : Memref sig .tc .vmem S1x100x1 .f32) (h5 : a5.IsWhole) (a6 : Memref sig .tc .vmem S1x16x1 .f32) (h6 : a6.IsWhole)
    (hc : ¬cond0_0 i) (x0 : Vec F S1x100x8192 .f32) (x1 : Vec F S1x16x8192 .f32) (xo2 : Vec F S1x100x16 .f32)
    (xo3 : Vec F S1x100x1 .f32) (xo4 : Vec F S1x16x1 .f32) :
    out0_B_4 c i a2 h2 a3 h3 a4 h4 a5 h5 a6 h6 hc x0 x1 xo2 xo3 xo4 = k0_pay1 (k0_pay9 xo4) (k0_pay10 x1) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x100x8192) hz3, View.ld_unit_zero (S := S1x16x8192) hz3, View.ld_unit_zero (S := S1x100x16) hz3,
    View.ld_unit_zero (S := S1x100x1) hz3, View.ld_unit_zero (S := S1x16x1) hz3]

/-- The first step of a batch row: the products block is the update of the zero block just stored. -/
theorem first_both (c : Dev nD) (i : grid0.Coords) (a2 : Memref sig .tc .vmem S1x100x8192 .f32) (h2 : a2.IsWhole)
    (a3 : Memref sig .tc .vmem S1x16x8192 .f32) (h3 : a3.IsWhole) (a4 : Memref sig .tc .vmem S1x100x16 .f32) (h4 : a4.IsWhole)
    (a5 : Memref sig .tc .vmem S1x100x1 .f32) (h5 : a5.IsWhole) (a6 : Memref sig .tc .vmem S1x16x1 .f32) (h6 : a6.IsWhole)
    (hc : cond0_0 i) (x0 : Vec F S1x100x8192 .f32) (x1 : Vec F S1x16x8192 .f32) :
    out0_A_2 c i a2 h2 a3 h3 a4 h4 a5 h5 a6 h6 hc x0 x1 = k0_pay7 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x100x16) hz3, View.readCov_unit_zero (S := S1x100x16) _ hz3]
  simp only [View.readAt_eq_ld, h2.read_unread, h3.read_unread, h4.read_unread, h5.read_unread, h6.read_unread,
    View.ld_unit_zero (S := S1x100x8192) hz3, View.ld_unit_zero (S := S1x16x8192) hz3, View.ld_unit_zero (S := S1x100x16) hz3,
    View.ld_unit_zero (S := S1x100x1) hz3, View.ld_unit_zero (S := S1x16x1) hz3]

/-- The first step of a batch row: the sigmoid row sums are the update of the zero column just stored. -/
theorem first_pred (c : Dev nD) (i : grid0.Coords) (a2 : Memref sig .tc .vmem S1x100x8192 .f32) (h2 : a2.IsWhole)
    (a3 : Memref sig .tc .vmem S1x16x8192 .f32) (h3 : a3.IsWhole) (a4 : Memref sig .tc .vmem S1x100x16 .f32) (h4 : a4.IsWhole)
    (a5 : Memref sig .tc .vmem S1x100x1 .f32) (h5 : a5.IsWhole) (a6 : Memref sig .tc .vmem S1x16x1 .f32) (h6 : a6.IsWhole)
    (hc : cond0_0 i) (x0 : Vec F S1x100x8192 .f32) (x1 : Vec F S1x16x8192 .f32) :
    out0_A_3 c i a2 h2 a3 h3 a4 h4 a5 h5 a6 h6 hc x0 x1 = k0_pay8 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x100x1) hz3, View.readCov_unit_zero (S := S1x100x1) _ hz3]
  simp only [View.readAt_eq_ld, h2.read_unread, h3.read_unread, h4.read_unread, h5.read_unread, h6.read_unread,
    View.ld_unit_zero (S := S1x100x8192) hz3, View.ld_unit_zero (S := S1x16x8192) hz3, View.ld_unit_zero (S := S1x100x16) hz3,
    View.ld_unit_zero (S := S1x100x1) hz3, View.ld_unit_zero (S := S1x16x1) hz3]

/-- The first step of a batch row: the target row sums are the update of the zero column just stored. -/
theorem first_tgt (c : Dev nD) (i : grid0.Coords) (a2 : Memref sig .tc .vmem S1x100x8192 .f32) (h2 : a2.IsWhole)
    (a3 : Memref sig .tc .vmem S1x16x8192 .f32) (h3 : a3.IsWhole) (a4 : Memref sig .tc .vmem S1x100x16 .f32) (h4 : a4.IsWhole)
    (a5 : Memref sig .tc .vmem S1x100x1 .f32) (h5 : a5.IsWhole) (a6 : Memref sig .tc .vmem S1x16x1 .f32) (h6 : a6.IsWhole)
    (hc : cond0_0 i) (x0 : Vec F S1x100x8192 .f32) (x1 : Vec F S1x16x8192 .f32) :
    out0_A_4 c i a2 h2 a3 h3 a4 h4 a5 h5 a6 h6 hc x0 x1 = k0_pay1 (k0_pay9 (k0_pay4 (F := F))) (k0_pay10 x1) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x16x1) hz3, View.readCov_unit_zero (S := S1x16x1) _ hz3]
  simp only [View.readAt_eq_ld, h2.read_unread, h3.read_unread, h4.read_unread, h5.read_unread, h6.read_unread,
    View.ld_unit_zero (S := S1x100x8192) hz3, View.ld_unit_zero (S := S1x16x8192) hz3, View.ld_unit_zero (S := S1x100x16) hz3,
    View.ld_unit_zero (S := S1x100x1) hz3, View.ld_unit_zero (S := S1x16x1) hz3]

end Cert.KernelIdeal.Carried
end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.StepSums.lean ====
import proofs.«177019_j33672543601174_1_alg».proof.Proof.Gen.KernelIdeal.Skeleton
import proofs.«177019_j33672543601174_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

/-! # One grid step's update of the three running blocks, entry by entry, over the extended reals

A step loads a `[1,100,8192]` block `x` of mask logits and a `[1,16,8192]` block `y` of target masks. With `σ` the
logistic function applied entrywise, the step adds to the running blocks

* at `(q, t)`: `Σ_j σ(x[q,j]) · y[t,j]` (a matrix product into a zero accumulator; the change of float format of
  its operands is the identity on the extended reals),
* at row `q`: `Σ_j σ(x[q,j])` (a lane sum kept as a unit column),
* at row `t`: `Σ_j y[t,j]`,

and the zero blocks the first step of a batch row stores are `0` at every entry. -/

namespace Cert.KernelIdeal.StepSums
open Cert.KernelIdeal Cert.KernelIdeal.Gen ValueIdx Cert.Keepdims

/-- The matrix product's operand indices at output `(q, t)` and contraction coordinate `k`: the left operand is read at
    `(q, k)`, the right at `(t, k)`. -/
theorem lhs_row (i : S100x16.Idx) (k : (dot_S100x8192_S16x8192_S100x16_1_1_0_0_n_n).contr.Idx) : ((dot_S100x8192_S16x8192_S100x16_1_1_0_0_n_n).lhsIdx i k 0).val = (i 0).val := by
  unfold DotDims.lhsIdx
  rw [dif_neg (show ¬(0 : Fin S100x8192.rank) ∈ (dot_S100x8192_S16x8192_S100x16_1_1_0_0_n_n).lhsBatch by decide),
    dif_pos (show (0 : Fin S100x8192.rank) ∈ (dot_S100x8192_S16x8192_S100x16_1_1_0_0_n_n).lhsNonContracting by decide)]
  rfl
theorem lhs_lane (i : S100x16.Idx) (k : (dot_S100x8192_S16x8192_S100x16_1_1_0_0_n_n).contr.Idx) : ((dot_S100x8192_S16x8192_S100x16_1_1_0_0_n_n).lhsIdx i k 1).val = (k ⟨0, by decide⟩).val :=
  (dot_S100x8192_S16x8192_S100x16_1_1_0_0_n_n).lhsIdx_val_of_single rfl i k
theorem rhs_row (i : S100x16.Idx) (k : (dot_S100x8192_S16x8192_S100x16_1_1_0_0_n_n).contr.Idx) : ((dot_S100x8192_S16x8192_S100x16_1_1_0_0_n_n).rhsIdx i k 0).val = (i 1).val := by
  unfold DotDims.rhsIdx
  rw [dif_neg (show ¬(0 : Fin S16x8192.rank) ∈ (dot_S100x8192_S16x8192_S100x16_1_1_0_0_n_n).rhsBatch by decide),
    dif_pos (show (0 : Fin S16x8192.rank) ∈ (dot_S100x8192_S16x8192_S100x16_1_1_0_0_n_n).rhsNonContracting by decide)]
  rfl
theorem rhs_lane (i : S100x16.Idx) (k : (dot_S100x8192_S16x8192_S100x16_1_1_0_0_n_n).contr.Idx) : ((dot_S100x8192_S16x8192_S100x16_1_1_0_0_n_n).rhsIdx i k 1).val = (k ⟨0, by decide⟩).val :=
  (dot_S100x8192_S16x8192_S100x16_1_1_0_0_n_n).rhsIdx_val_of_single rfl i k

/-- The products block after a step, at `(q, t)`: the block before plus `Σ_j σ(x[q,j]) · y[t,j]`. -/
theorem both_apply (x : Vec Ideal S1x100x8192 .f32) (y : Vec Ideal S1x16x8192 .f32) (acc : Vec Ideal S1x100x16 .f32)
    (u : Fin 1) (q : Fin 100) (t : Fin 16) :
    k0_pay7 (F := Ideal) x y acc (ix3 u q t)
      = (acc (ix3 (0 : Fin 1) q t) : EReal)
        + ∑ j : Fin 8192, Ideal.logistic (x (ix3 (0 : Fin 1) q j)) * (y (ix3 (0 : Fin 1) t j) : EReal) := by
  unfold k0_pay7
  refine (shapeCast_ab_1ab_apply _ shapeCasts_S100x16_S1x100x16 u q t).trans ?_
  refine congrArg₂ (fun a b : EReal => a + b) (shapeCast_1ab_ab_apply acc shapeCasts_S1x100x16_S100x16 q t) ?_
  refine (Ideal.matmul_constant_zero_apply (dot_S100x8192_S16x8192_S100x16_1_1_0_0_n_n) none _ _ (ix2 q t)).trans ?_
  rw [← Equiv.sum_comp (contrEquiv1 (dot_S100x8192_S16x8192_S100x16_1_1_0_0_n_n) 8192 rfl rfl).symm]
  refine Finset.sum_congr rfl fun j _ => ?_
  have hj := contrEquiv1_symm_val (dot_S100x8192_S16x8192_S100x16_1_1_0_0_n_n) 8192 rfl rfl j
  have el : (dot_S100x8192_S16x8192_S100x16_1_1_0_0_n_n).lhsIdx (ix2 q t)
      ((contrEquiv1 (dot_S100x8192_S16x8192_S100x16_1_1_0_0_n_n) 8192 rfl rfl).symm j) = ix2 q j :=
    funext fun a => Fin.ext (by
      match a with
      | ⟨0, _⟩ => exact lhs_row _ _
      | ⟨1, _⟩ => exact (lhs_lane _ _).trans hj)
  have er : (dot_S100x8192_S16x8192_S100x16_1_1_0_0_n_n).rhsIdx (ix2 q t)
      ((contrEquiv1 (dot_S100x8192_S16x8192_S100x16_1_1_0_0_n_n) 8192 rfl rfl).symm j) = ix2 t j :=
    funext fun a => Fin.ext (by
      match a with
      | ⟨0, _⟩ => exact rhs_row _ _
      | ⟨1, _⟩ => exact (rhs_lane _ _).trans hj)
  rw [el, er]
  refine congrArg₂ (fun a b : EReal => a * b) ?_ ?_
  · exact congrArg Ideal.logistic (shapeCast_1ab_ab_apply x shapeCasts_S1x100x8192_S100x8192 q j)
  · exact shapeCast_1ab_ab_apply y shapeCasts_S1x16x8192_S16x8192 t j

/-- The sigmoid row sums after a step, at row `q`: the column before plus `Σ_j σ(x[q,j])`. -/
theorem pred_apply (x : Vec Ideal S1x100x8192 .f32) (acc : Vec Ideal S1x100x1 .f32) (u : Fin 1) (q : Fin 100) (v : Fin 1) :
    k0_pay8 (F := Ideal) x acc (ix3 u q v)
      = (acc (ix3 (0 : Fin 1) q v) : EReal) + ∑ j : Fin 8192, Ideal.logistic (x (ix3 (0 : Fin 1) q j)) := by
  unfold k0_pay8
  refine (shapeCast_ab_1ab_apply _ shapeCasts_S100x1_S1x100x1 u q v).trans ?_
  refine congrArg₂ (fun a b : EReal => a + b) (shapeCast_1ab_ab_apply acc shapeCasts_S1x100x1_S100x1 q v) ?_
  refine (shapeCast_a_a1_apply _ shapeCasts_S100_S100x1 q v).trans ?_
  refine (Ideal.multiReduction_add_single _ _ reduces_S100x8192_S100 _ _ (ix1 q)).trans ?_
  refine Finset.sum_congr rfl fun j _ => ?_
  unfold k0_pay5
  have e : reduces_S100x8192_S100.lift (ix1 q) j = ix2 q j :=
    funext fun a => Fin.ext (by match a with | ⟨0, _⟩ => rfl | ⟨1, _⟩ => rfl)
  rw [e]
  exact congrArg Ideal.logistic (shapeCast_1ab_ab_apply x shapeCasts_S1x100x8192_S100x8192 q j)

/-- The target row sums after a step, at row `t`: the column before plus `Σ_j y[t,j]`. -/
theorem tgt_apply (y : Vec Ideal S1x16x8192 .f32) (acc : Vec Ideal S1x16x1 .f32) (u : Fin 1) (t : Fin 16) (v : Fin 1) :
    k0_pay1 (F := Ideal) (k0_pay9 acc) (k0_pay10 y) (ix3 u t v)
      = (acc (ix3 (0 : Fin 1) t v) : EReal) + ∑ j : Fin 8192, (y (ix3 (0 : Fin 1) t j) : EReal) := by
  unfold k0_pay1 k0_pay9 k0_pay10
  refine (shapeCast_ab_1ab_apply _ shapeCasts_S16x1_S1x16x1 u t v).trans ?_
  refine congrArg₂ (fun a b : EReal => a + b) (shapeCast_1ab_ab_apply acc shapeCasts_S1x16x1_S16x1 t v) ?_
  refine (shapeCast_a_a1_apply _ shapeCasts_S16_S16x1 t v).trans ?_
  refine (Ideal.multiReduction_add_single _ _ reduces_S16x8192_S16 _ _ (ix1 t)).trans ?_
  refine Finset.sum_congr rfl fun j _ => ?_
  unfold k0_pay6
  have e : reduces_S16x8192_S16.lift (ix1 t) j = ix2 t j :=
    funext fun a => Fin.ext (by match a with | ⟨0, _⟩ => rfl | ⟨1, _⟩ => rfl)
  rw [e]
  exact shapeCast_1ab_ab_apply y shapeCasts_S1x16x8192_S16x8192 t j

/-- The zero blocks a batch row's first step stores are `0` at every entry. -/
theorem zero_both (u : Fin 1) (q : Fin 100) (t : Fin 16) : (k0_pay2 (F := Ideal) (ix3 u q t) : EReal) = 0 := by
  unfold k0_pay2
  exact (shapeCast_ab_1ab_apply _ shapeCasts_S100x16_S1x100x16 u q t).trans Ideal.ofBits_zero_f32
theorem zero_pred (u : Fin 1) (q : Fin 100) (v : Fin 1) : (k0_pay3 (F := Ideal) (ix3 u q v) : EReal) = 0 := by
  unfold k0_pay3
  exact (shapeCast_ab_1ab_apply _ shapeCasts_S100x1_S1x100x1 u q v).trans Ideal.ofBits_zero_f32
theorem zero_tgt (u : Fin 1) (t : Fin 16) (v : Fin 1) : (k0_pay4 (F := Ideal) (ix3 u t v) : EReal) = 0 := by
  unfold k0_pay4
  exact (shapeCast_ab_1ab_apply _ shapeCasts_S16x1_S1x16x1 u t v).trans Ideal.ofBits_zero_f32

end Cert.KernelIdeal.StepSums
end
-- ==== Proof.BlockSums.lean ====
import Mathlib.Algebra.BigOperators.Fin
import Mathlib.Algebra.BigOperators.Group.Finset.Basic
import Mathlib.Logic.Equiv.Fin.Basic

/-! # Sums over 65536 lanes taken eight blocks of 8192 at a time

The kernel walks the 65536 positions of a flattened 256×256 mask in eight consecutive blocks of 8192 and keeps a
running sum across the eight steps of a batch row; the reference sums all 65536 positions at once. In a commutative
monoid the two agree: a sum over `Fin 65536` is the sum over the block number `k` of the sums over the position `j`
inside the block, position `8192·k + j`. The running sum after step `n` of the row-major walk (step `n` is batch row
`n / 8`, block `n % 8`) is the sum of the partial sums of the blocks `0 … n % 8` of that batch row. -/

namespace Cert.BlockSums

open Finset

variable {M : Type*} [AddCommMonoid M]

/-- A sum over the 65536 positions, taken block by block. -/
theorem sum_lanes (f : Fin 65536 → M) :
    ∑ n : Fin 65536, f n
      = ∑ k : Fin 8, ∑ j : Fin 8192, f ⟨8192 * k.val + j.val, by have := k.isLt; have := j.isLt; omega⟩ := by
  calc ∑ n : Fin 65536, f n
      = ∑ p : Fin 8 × Fin 8192, f (finProdFinEquiv p) := (Equiv.sum_comp (finProdFinEquiv : Fin 8 × Fin 8192 ≃ Fin (8 * 8192)) f).symm
    _ = ∑ k : Fin 8, ∑ j : Fin 8192, f (finProdFinEquiv (k, j)) := Fintype.sum_prod_type _
    _ = _ := Finset.sum_congr rfl fun k _ => Finset.sum_congr rfl fun j _ => congrArg f (Fin.ext (by
          show j.val + 8192 * k.val = 8192 * k.val + j.val
          omega))

/-- The running sum after step `n` of a walk in rows of eight steps: the partial sums `g` of the steps of `n`'s row up
    to and including `n`. -/
def running (g : ℕ → M) (n : ℕ) : M := ∑ k ∈ range (n % 8 + 1), g (n / 8 * 8 + k)

/-- At the first step of a row it is that step's partial sum. -/
theorem running_first (g : ℕ → M) {n : ℕ} (h : n % 8 = 0) : running g n = g n := by
  unfold running
  rw [h, Finset.sum_range_one, Nat.add_zero, show n / 8 * 8 = n by omega]

/-- At a later step it is the running sum of the step before plus this step's partial sum. -/
theorem running_next (g : ℕ → M) {n : ℕ} (h : ¬(n + 1) % 8 = 0) : running g (n + 1) = running g n + g (n + 1) := by
  unfold running
  have h1 : (n + 1) % 8 = n % 8 + 1 := by omega
  have h2 : (n + 1) / 8 = n / 8 := by omega
  rw [h1, h2, Finset.sum_range_succ (fun k => g (n / 8 * 8 + k)) (n % 8 + 1), show n / 8 * 8 + (n % 8 + 1) = n + 1 by omega]

/-- At the last step of a row it is the sum of the row's eight partial sums. -/
theorem running_last (g : ℕ → M) {n : ℕ} (h : n % 8 = 7) : running g n = ∑ k : Fin 8, g (8 * (n / 8) + k.val) := by
  unfold running
  rw [h, show n / 8 * 8 = 8 * (n / 8) by omega]
  exact Finset.sum_range (fun k => g (8 * (n / 8) + k))

end Cert.BlockSums
-- ==== Proof.Areas.lean ====
import Idealize.ShloMosaic.Lib.ValueIdx
import Idealize.ShloMosaic.PureOps.Ideal

noncomputable section

/-! # The three mask areas

For a batch of 4, 100 predicted masks and 16 target masks over 65536 positions, with `S[b,q,n]` the predicted mask
probabilities and `Y[b,t,n]` the target masks:

* the overlap of prediction `q` and target `t`: `Σ_n S[b,q,n] · Y[b,t,n]`,
* the area of prediction `q`: `Σ_n S[b,q,n]` (kept as a unit column),
* the area of target `t`: `Σ_n Y[b,t,n]` (as a unit column, and as a unit row).

Sums of extended reals; no finiteness is assumed anywhere. -/

namespace Cert.Areas

open Idealize.ShloMosaic Idealize.ShloMosaic.ValueIdx

/-- Overlaps, `[4,100,16]`. -/
def overlap (S : (⟨3, ![4, 100, 65536]⟩ : Shape).Idx → EReal) (Y : (⟨3, ![4, 16, 65536]⟩ : Shape).Idx → EReal) :
    (⟨3, ![4, 100, 16]⟩ : Shape).Idx → EReal :=
  fun i => ∑ n : Fin 65536, S (ix3 (i 0) (i 1) n) * Y (ix3 (i 0) (i 2) n)

/-- Prediction areas as a column, `[4,100,1]`. -/
def predArea (S : (⟨3, ![4, 100, 65536]⟩ : Shape).Idx → EReal) : (⟨3, ![4, 100, 1]⟩ : Shape).Idx → EReal :=
  fun i => ∑ n : Fin 65536, S (ix3 (i 0) (i 1) n)

/-- Target areas as a column, `[4,16,1]`. -/
def tgtAreaCol (Y : (⟨3, ![4, 16, 65536]⟩ : Shape).Idx → EReal) : (⟨3, ![4, 16, 1]⟩ : Shape).Idx → EReal :=
  fun i => ∑ n : Fin 65536, Y (ix3 (i 0) (i 1) n)

/-- Target areas as a row, `[4,1,16]`. -/
def tgtAreaRow (Y : (⟨3, ![4, 16, 65536]⟩ : Shape).Idx → EReal) : (⟨3, ![4, 1, 16]⟩ : Shape).Idx → EReal :=
  fun i => ∑ n : Fin 65536, Y (ix3 (i 0) (i 2) n)

/-- Two index triples with equal first and last coordinates (as numbers) and the same middle one are equal. -/
theorem ix3_congr {n0 n1 n2 : Nat} {a a' : Fin n0} (b : Fin n1) {c c' : Fin n2} (ha : a.val = a'.val) (hc : c.val = c'.val) :
    ix3 a b c = ix3 a' b c' := by
  obtain rfl := Fin.ext ha; obtain rfl := Fin.ext hc; rfl

end Cert.Areas

end
-- ==== Proof.RowTotals.lean ====
import proofs.«177019_j33672543601174_1_alg».proof.Proof.Carried
import proofs.«177019_j33672543601174_1_alg».proof.Proof.StepSums
import proofs.«177019_j33672543601174_1_alg».proof.Proof.BlockSums
import proofs.«177019_j33672543601174_1_alg».proof.Proof.Areas

-- the windows' index arithmetic is unfolded through long literal extents
set_option maxRecDepth 16384

noncomputable section

open Idealize.ShloMosaic Idealize.ShloMosaic.TcCoe Idealize.SL.Sem
open Idealize.ShloMosaic.Pipeline (Dat)

/-! # The running blocks after every grid step

Step `n` of the grid is batch row `n / 8`, lane block `n % 8`: its two input blocks are rows `n / 8` of the flattened
mask logits and target masks, lanes `8192·(n % 8) … 8192·(n % 8) + 8191`. By induction on the step, each entry of a
running block after step `n` is the sum of the partial sums of the blocks `0 … n % 8` of batch row `n / 8`. -/

namespace Cert.KernelIdeal.RowTotals
open Cert.KernelIdeal Cert.KernelIdeal.Gen ValueIdx Cert.BlockSums

variable (m : (ℓ : Loc nD τ sig) → Buf (Elt Ideal) ℓ)

/-- The input windows' block indices at step `t`: batch row `t / 8`, all rows, lane block `t % 8`. -/
theorem idx_logits : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)
theorem idx_targets : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)

/-- The two input blocks of step `t`, as arrays of extended reals. -/
abbrev logitsBlk (c : Dev nD) (t : Fin cfg0.N) : S1x100x8192.Idx → EReal := iblk m c 0 t
abbrev targetsBlk (c : Dev nD) (t : Fin cfg0.N) : S1x16x8192.Idx → EReal := iblk m c 1 t
/-- The flattened logits and targets as the region finds them, as arrays of extended reals. -/
abbrev logitsArr (c : Dev nD) : S4x100x65536.Idx → EReal := V m c main_v16
abbrev targetsArr (c : Dev nD) : S4x16x65536.Idx → EReal := V m c main_v17

theorem row_lt (t : Fin cfg0.N) : t.val / 8 < 4 := by
  have := t.isLt; have : cfg0.N = 32 := N_0; omega
theorem lane_lt (n : ℕ) (j : Fin 8192) : 8192 * (n % 8) + j.val < 65536 := by
  have := j.isLt; omega

/-- The logits block of step `t` at `(q, j)` is the flattened logits at `(t / 8, q, 8192·(t % 8) + j)`. -/
theorem logits_block (c : Dev nD) (t : Fin cfg0.N) (q : Fin 100) (j : Fin 8192) :
    logitsBlk m c t (ix3 (0 : Fin 1) q j)
      = logitsArr m c (ix3 ⟨t.val / 8, row_lt t⟩ q ⟨8192 * (t.val % 8) + j.val, lane_lt _ j⟩) := by
  obtain ⟨h0, h1, h2⟩ := idx_logits t
  unfold logitsBlk logitsArr iblk
  rw [View.read_apply]
  show V m c main_v16 _ = V m c main_v16 _
  congr 1
  funext a
  apply Fin.ext
  match a with
  | ⟨0, _⟩ => show win0_0.index t 0 * 1 + 1 * 0 = t.val / 8; rw [h0]; omega
  | ⟨1, _⟩ => show win0_0.index t 1 * 100 + 1 * q.val = q.val; rw [h1]; omega
  | ⟨2, _⟩ => show win0_0.index t 2 * 8192 + 1 * j.val = 8192 * (t.val % 8) + j.val; rw [h2]; omega

/-- The targets block of step `t` at `(r, j)` is the flattened targets at `(t / 8, r, 8192·(t % 8) + j)`. -/
theorem targets_block (c : Dev nD) (t : Fin cfg0.N) (r : Fin 16) (j : Fin 8192) :
    targetsBlk m c t (ix3 (0 : Fin 1) r j)
      = targetsArr m c (ix3 ⟨t.val / 8, row_lt t⟩ r ⟨8192 * (t.val % 8) + j.val, lane_lt _ j⟩) := by
  obtain ⟨h0, h1, h2⟩ := idx_targets t
  unfold targetsBlk targetsArr iblk
  rw [View.read_apply]
  show V m c main_v17 _ = V m c main_v17 _
  congr 1
  funext a
  apply Fin.ext
  match a with
  | ⟨0, _⟩ => show win0_1.index t 0 * 1 + 1 * 0 = t.val / 8; rw [h0]; omega
  | ⟨1, _⟩ => show win0_1.index t 1 * 16 + 1 * r.val = r.val; rw [h1]; omega
  | ⟨2, _⟩ => show win0_1.index t 2 * 8192 + 1 * j.val = 8192 * (t.val % 8) + j.val; rw [h2]; omega

/-! ## The partial sums of a step, and the induction -/

/-- Step `n`'s contribution to the overlap of `q` and `r` (zero past the grid). -/
def stepOverlap (c : Dev nD) (q : Fin 100) (r : Fin 16) (n : ℕ) : EReal :=
  if h : n < cfg0.N then
    ∑ j : Fin 8192, Ideal.logistic (logitsBlk m c ⟨n, h⟩ (ix3 (0 : Fin 1) q j))
      * (targetsBlk m c ⟨n, h⟩ (ix3 (0 : Fin 1) r j) : EReal)
  else 0

/-- Step `n`'s contribution to the area of prediction `q`. -/
def stepPred (c : Dev nD) (q : Fin 100) (n : ℕ) : EReal :=
  if h : n < cfg0.N then
    ∑ j : Fin 8192, Ideal.logistic (logitsBlk m c ⟨n, h⟩ (ix3 (0 : Fin 1) q j))
  else 0

/-- Step `n`'s contribution to the area of target `r`. -/
def stepTgt (c : Dev nD) (r : Fin 16) (n : ℕ) : EReal :=
  if h : n < cfg0.N then
    ∑ j : Fin 8192, (targetsBlk m c ⟨n, h⟩ (ix3 (0 : Fin 1) r j) : EReal)
  else 0

theorem stepOverlap_at (c : Dev nD) (q : Fin 100) (r : Fin 16) (t : Fin cfg0.N) :
    stepOverlap m c q r t.val = ∑ j : Fin 8192, Ideal.logistic (logitsBlk m c t (ix3 (0 : Fin 1) q j))
      * (targetsBlk m c t (ix3 (0 : Fin 1) r j) : EReal) := by
  unfold stepOverlap; rw [dif_pos t.isLt]
theorem stepPred_at (c : Dev nD) (q : Fin 100) (t : Fin cfg0.N) :
    stepPred m c q t.val = ∑ j : Fin 8192, Ideal.logistic (logitsBlk m c t (ix3 (0 : Fin 1) q j)) := by
  unfold stepPred; rw [dif_pos t.isLt]
theorem stepTgt_at (c : Dev nD) (r : Fin 16) (t : Fin cfg0.N) :
    stepTgt m c r t.val = ∑ j : Fin 8192, (targetsBlk m c t (ix3 (0 : Fin 1) r j) : EReal) := by
  unfold stepTgt; rw [dif_pos t.isLt]

/-- The first step of a batch row leaves exactly its own partial sums. -/
theorem first_step (c : Dev nD) (t : Fin cfg0.N) (h0 : t.val % 8 = 0) :
    (∀ (u : Fin 1) (q : Fin 100) (r : Fin 16), ((outsAt0 m c t.val t.isLt).1 (ix3 u q r) : EReal) = stepOverlap m c q r t.val)
    ∧ (∀ (u : Fin 1) (q : Fin 100) (v : Fin 1), ((outsAt0 m c t.val t.isLt).2.1 (ix3 u q v) : EReal) = stepPred m c q t.val)
    ∧ (∀ (u : Fin 1) (r : Fin 16) (v : Fin 1), ((outsAt0 m c t.val t.isLt).2.2 (ix3 u r v) : EReal) = stepTgt m c r t.val) := by
  rw [outsAt0_A m c t h0]
  dsimp only
  refine ⟨fun u q r => ?_, fun u q v => ?_, fun u r v => ?_⟩
  · rw [Carried.first_both c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      StepSums.both_apply, StepSums.zero_both, zero_add, stepOverlap_at]
  · rw [Carried.first_pred c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      StepSums.pred_apply, StepSums.zero_pred, zero_add, stepPred_at]
  · rw [Carried.first_tgt c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
      StepSums.tgt_apply, StepSums.zero_tgt, zero_add, stepTgt_at]

/-- A later step adds its partial sums to what the step before left. -/
theorem later_step (c : Dev nD) (t : Fin cfg0.N) (h0 : ¬t.val % 8 = 0) :
    (∀ (u : Fin 1) (q : Fin 100) (r : Fin 16), ((outsAt0 m c t.val t.isLt).1 (ix3 u q r) : EReal)
        = ((outsAt0 m c (t.val - 1) (Nat.lt_of_le_of_lt (Nat.sub_le _ _) t.isLt)).1 (ix3 (0 : Fin 1) q r) : EReal) + stepOverlap m c q r t.val)
    ∧ (∀ (u : Fin 1) (q : Fin 100) (v : Fin 1), ((outsAt0 m c t.val t.isLt).2.1 (ix3 u q v) : EReal)
        = ((outsAt0 m c (t.val - 1) (Nat.lt_of_le_of_lt (Nat.sub_le _ _) t.isLt)).2.1 (ix3 (0 : Fin 1) q v) : EReal) + stepPred m c q t.val)
    ∧ (∀ (u : Fin 1) (r : Fin 16) (v : Fin 1), ((outsAt0 m c t.val t.isLt).2.2 (ix3 u r v) : EReal)
        = ((outsAt0 m c (t.val - 1) (Nat.lt_of_le_of_lt (Nat.sub_le _ _) t.isLt)).2.2 (ix3 (0 : Fin 1) r v) : EReal) + stepTgt m c r t.val) := by
  rw [outsAt0_B m c t h0]
  dsimp only
  refine ⟨fun u q r => ?_, fun u q v => ?_, fun u r v => ?_⟩
  · rw [Carried.later_both c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      StepSums.both_apply, stepOverlap_at]
  · rw [Carried.later_pred c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      StepSums.pred_apply, stepPred_at]
  · rw [Carried.later_tgt c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
      StepSums.tgt_apply, stepTgt_at]

/-- After step `n` every entry of a running block is the running sum of its partial sums over `n`'s batch row. -/
theorem carried (c : Dev nD) : ∀ (n : ℕ) (h : n < cfg0.N),
    (∀ (u : Fin 1) (q : Fin 100) (r : Fin 16), ((outsAt0 m c n h).1 (ix3 u q r) : EReal) = running (stepOverlap m c q r) n)
    ∧ (∀ (u : Fin 1) (q : Fin 100) (v : Fin 1), ((outsAt0 m c n h).2.1 (ix3 u q v) : EReal) = running (stepPred m c q) n)
    ∧ (∀ (u : Fin 1) (r : Fin 16) (v : Fin 1), ((outsAt0 m c n h).2.2 (ix3 u r v) : EReal) = running (stepTgt m c r) n)
  | 0, h => by
    obtain ⟨a, b, d⟩ := first_step m c ⟨0, h⟩ rfl
    exact ⟨fun u q r => (a u q r).trans (running_first _ rfl).symm, fun u q v => (b u q v).trans (running_first _ rfl).symm,
      fun u r v => (d u r v).trans (running_first _ rfl).symm⟩
  | n + 1, h => by
    by_cases h0 : (n + 1) % 8 = 0
    · obtain ⟨a, b, d⟩ := first_step m c ⟨n + 1, h⟩ h0
      exact ⟨fun u q r => (a u q r).trans (running_first _ h0).symm, fun u q v => (b u q v).trans (running_first _ h0).symm,
        fun u r v => (d u r v).trans (running_first _ h0).symm⟩
    · obtain ⟨a, b, d⟩ := later_step m c ⟨n + 1, h⟩ h0
      obtain ⟨a', b', d'⟩ := carried c n (Nat.lt_of_succ_lt h)
      refine ⟨fun u q r => ?_, fun u q v => ?_, fun u r v => ?_⟩
      · rw [running_next _ h0, ← a' 0 q r]; exact a u q r
      · rw [running_next _ h0, ← b' 0 q v]; exact b u q v
      · rw [running_next _ h0, ← d' 0 r v]; exact d u r v

end Cert.KernelIdeal.RowTotals
end
-- ==== Proof.RowBlocks.lean ====
import proofs.«177019_j33672543601174_1_alg».proof.Proof.RowTotals

-- the windows' index arithmetic is unfolded through literal extents
set_option maxRecDepth 16384

noncomputable section

open Idealize.ShloMosaic Idealize.ShloMosaic.TcCoe Idealize.SL.Sem
open Idealize.ShloMosaic.Pipeline (Dat)

/-! # From the last step of each batch row to the result arrays

Each result array is written back four times, at the last step of each batch row (steps 7, 15, 23, 31), and the block
written at step `t` is row `t / 8`, whole. So a result array ends holding any array whose row `t / 8` the running block
holds at those steps. -/

namespace Cert.KernelIdeal.RowBlocks
open Cert.KernelIdeal Cert.KernelIdeal.Gen ValueIdx Cert.KernelIdeal.RowTotals

variable (m : (ℓ : Loc nD τ sig) → Buf (Elt Ideal) ℓ)

/-- The output windows' block indices at step `t`: batch row `t / 8`, the whole block. -/
theorem idx_out2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx_out3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem idx_out4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- If at the last step of every batch row the running block holds row `t / 8` of an array `G`, then the overlaps array
    ends holding `G`: the four write-backs are the four rows, and they tile the array. -/
theorem final_of2 (c : Dev nD) (G : S4x100x16.Idx → EReal)
    (hG : ∀ t : Fin cfg0.N, t.val % 8 = 7 → ∀ (u : Fin 1) (p : Fin 100) (v : Fin 16),
      ((outsAt0 m c t.val t.isLt).1 (ix3 u p v) : EReal) = G (ix3 ⟨t.val / 8, row_lt t⟩ p v)) :
    (dats m 0 c).arrAt 2 cfg0.N = G := by
  refine (dats m 0 c).arrAt_eq_of_cover 2 G (fun t hf => ?_) (fun i => ?_)
  · have h7 : t.val % 8 = 7 := (flush0_2 t).mp hf
    obtain ⟨e0, e1, e2⟩ := idx_out2 t
    show (cfg0.win 2).cut (grid0.coords t) ((dats m 0 c).after 2 t) = _
    rw [after0_2]
    funext y
    obtain ⟨u, p, v, rfl⟩ : ∃ (u : Fin 1) (p : Fin 100) (v : Fin 16), y = ix3 u p v := ⟨y 0, y 1, y 2, eq_ix3 y⟩
    have hemb : ((cfg0.win 2).blk t).view.emb (ix3 u p v) = ix3 ⟨t.val / 8, row_lt t⟩ p v := by
      funext a; apply Fin.ext
      match a with
      | ⟨0, _⟩ => show win0_2.index t 0 * 1 + 1 * u.val = t.val / 8; rw [e0]; omega
      | ⟨1, _⟩ => show win0_2.index t 1 * 100 + 1 * p.val = p.val; rw [e1]; omega
      | ⟨2, _⟩ => show win0_2.index t 2 * 16 + 1 * v.val = v.val; rw [e2]; omega
    rw [View.read_apply, hemb]
    exact hG t h7 u p v
  · have hb : (i 0).val < 4 := (i 0).isLt
    have h1 : (i 1).val < 100 := (i 1).isLt
    have h2 : (i 2).val < 16 := (i 2).isLt
    have hN : cfg0.N = 32 := N_0
    have ht : 8 * (i 0).val + 7 < cfg0.N := by omega
    obtain ⟨e0, e1, e2⟩ := idx_out2 ⟨8 * (i 0).val + 7, ht⟩
    have e0' : win0_2.index ⟨8 * (i 0).val + 7, ht⟩ 0 = (i 0).val := by
      rw [e0]; show (8 * (i 0).val + 7) / 8 = (i 0).val; omega
    refine ⟨⟨8 * (i 0).val + 7, ht⟩, (flush0_2 _).mpr (by show (8 * (i 0).val + 7) % 8 = 7; omega), ?_⟩
    show i ∈ ((View.whole main_v18_0).slice (win0_2.rect ⟨8 * (i 0).val + 7, ht⟩)).set
    rw [View.set_slice_whole, Rect.mem_set_unit]
    intro a
    match a with
    | ⟨0, _⟩ =>
      show win0_2.index ⟨8 * (i 0).val + 7, ht⟩ 0 * 1 ≤ (i 0).val ∧ (i 0).val < win0_2.index ⟨8 * (i 0).val + 7, ht⟩ 0 * 1 + 1
      rw [e0']; omega
    | ⟨1, _⟩ =>
      show win0_2.index ⟨8 * (i 0).val + 7, ht⟩ 1 * 100 ≤ (i 1).val ∧ (i 1).val < win0_2.index ⟨8 * (i 0).val + 7, ht⟩ 1 * 100 + 100
      rw [e1]; omega
    | ⟨2, _⟩ =>
      show win0_2.index ⟨8 * (i 0).val + 7, ht⟩ 2 * 16 ≤ (i 2).val ∧ (i 2).val < win0_2.index ⟨8 * (i 0).val + 7, ht⟩ 2 * 16 + 16
      rw [e2]; omega

/-- If at the last step of every batch row the running block holds row `t / 8` of an array `G`, then the prediction areas array
    ends holding `G`: the four write-backs are the four rows, and they tile the array. -/
theorem final_of3 (c : Dev nD) (G : S4x100x1.Idx → EReal)
    (hG : ∀ t : Fin cfg0.N, t.val % 8 = 7 → ∀ (u : Fin 1) (p : Fin 100) (v : Fin 1),
      ((outsAt0 m c t.val t.isLt).2.1 (ix3 u p v) : EReal) = G (ix3 ⟨t.val / 8, row_lt t⟩ p v)) :
    (dats m 0 c).arrAt 3 cfg0.N = G := by
  refine (dats m 0 c).arrAt_eq_of_cover 3 G (fun t hf => ?_) (fun i => ?_)
  · have h7 : t.val % 8 = 7 := (flush0_3 t).mp hf
    obtain ⟨e0, e1, e2⟩ := idx_out3 t
    show (cfg0.win 3).cut (grid0.coords t) ((dats m 0 c).after 3 t) = _
    rw [after0_3]
    funext y
    obtain ⟨u, p, v, rfl⟩ : ∃ (u : Fin 1) (p : Fin 100) (v : Fin 1), y = ix3 u p v := ⟨y 0, y 1, y 2, eq_ix3 y⟩
    have hemb : ((cfg0.win 3).blk t).view.emb (ix3 u p v) = ix3 ⟨t.val / 8, row_lt t⟩ p v := by
      funext a; apply Fin.ext
      match a with
      | ⟨0, _⟩ => show win0_3.index t 0 * 1 + 1 * u.val = t.val / 8; rw [e0]; omega
      | ⟨1, _⟩ => show win0_3.index t 1 * 100 + 1 * p.val = p.val; rw [e1]; omega
      | ⟨2, _⟩ => show win0_3.index t 2 * 1 + 1 * v.val = v.val; rw [e2]; omega
    rw [View.read_apply, hemb]
    exact hG t h7 u p v
  · have hb : (i 0).val < 4 := (i 0).isLt
    have h1 : (i 1).val < 100 := (i 1).isLt
    have h2 : (i 2).val < 1 := (i 2).isLt
    have hN : cfg0.N = 32 := N_0
    have ht : 8 * (i 0).val + 7 < cfg0.N := by omega
    obtain ⟨e0, e1, e2⟩ := idx_out3 ⟨8 * (i 0).val + 7, ht⟩
    have e0' : win0_3.index ⟨8 * (i 0).val + 7, ht⟩ 0 = (i 0).val := by
      rw [e0]; show (8 * (i 0).val + 7) / 8 = (i 0).val; omega
    refine ⟨⟨8 * (i 0).val + 7, ht⟩, (flush0_3 _).mpr (by show (8 * (i 0).val + 7) % 8 = 7; omega), ?_⟩
    show i ∈ ((View.whole main_v18_1).slice (win0_3.rect ⟨8 * (i 0).val + 7, ht⟩)).set
    rw [View.set_slice_whole, Rect.mem_set_unit]
    intro a
    match a with
    | ⟨0, _⟩ =>
      show win0_3.index ⟨8 * (i 0).val + 7, ht⟩ 0 * 1 ≤ (i 0).val ∧ (i 0).val < win0_3.index ⟨8 * (i 0).val + 7, ht⟩ 0 * 1 + 1
      rw [e0']; omega
    | ⟨1, _⟩ =>
      show win0_3.index ⟨8 * (i 0).val + 7, ht⟩ 1 * 100 ≤ (i 1).val ∧ (i 1).val < win0_3.index ⟨8 * (i 0).val + 7, ht⟩ 1 * 100 + 100
      rw [e1]; omega
    | ⟨2, _⟩ =>
      show win0_3.index ⟨8 * (i 0).val + 7, ht⟩ 2 * 1 ≤ (i 2).val ∧ (i 2).val < win0_3.index ⟨8 * (i 0).val + 7, ht⟩ 2 * 1 + 1
      rw [e2]; omega

/-- If at the last step of every batch row the running block holds row `t / 8` of an array `G`, then the target areas array
    ends holding `G`: the four write-backs are the four rows, and they tile the array. -/
theorem final_of4 (c : Dev nD) (G : S4x16x1.Idx → EReal)
    (hG : ∀ t : Fin cfg0.N, t.val % 8 = 7 → ∀ (u : Fin 1) (p : Fin 16) (v : Fin 1),
      ((outsAt0 m c t.val t.isLt).2.2 (ix3 u p v) : EReal) = G (ix3 ⟨t.val / 8, row_lt t⟩ p v)) :
    (dats m 0 c).arrAt 4 cfg0.N = G := by
  refine (dats m 0 c).arrAt_eq_of_cover 4 G (fun t hf => ?_) (fun i => ?_)
  · have h7 : t.val % 8 = 7 := (flush0_4 t).mp hf
    obtain ⟨e0, e1, e2⟩ := idx_out4 t
    show (cfg0.win 4).cut (grid0.coords t) ((dats m 0 c).after 4 t) = _
    rw [after0_4]
    funext y
    obtain ⟨u, p, v, rfl⟩ : ∃ (u : Fin 1) (p : Fin 16) (v : Fin 1), y = ix3 u p v := ⟨y 0, y 1, y 2, eq_ix3 y⟩
    have hemb : ((cfg0.win 4).blk t).view.emb (ix3 u p v) = ix3 ⟨t.val / 8, row_lt t⟩ p v := by
      funext a; apply Fin.ext
      match a with
      | ⟨0, _⟩ => show win0_4.index t 0 * 1 + 1 * u.val = t.val / 8; rw [e0]; omega
      | ⟨1, _⟩ => show win0_4.index t 1 * 16 + 1 * p.val = p.val; rw [e1]; omega
      | ⟨2, _⟩ => show win0_4.index t 2 * 1 + 1 * v.val = v.val; rw [e2]; omega
    rw [View.read_apply, hemb]
    exact hG t h7 u p v
  · have hb : (i 0).val < 4 := (i 0).isLt
    have h1 : (i 1).val < 16 := (i 1).isLt
    have h2 : (i 2).val < 1 := (i 2).isLt
    have hN : cfg0.N = 32 := N_0
    have ht : 8 * (i 0).val + 7 < cfg0.N := by omega
    obtain ⟨e0, e1, e2⟩ := idx_out4 ⟨8 * (i 0).val + 7, ht⟩
    have e0' : win0_4.index ⟨8 * (i 0).val + 7, ht⟩ 0 = (i 0).val := by
      rw [e0]; show (8 * (i 0).val + 7) / 8 = (i 0).val; omega
    refine ⟨⟨8 * (i 0).val + 7, ht⟩, (flush0_4 _).mpr (by show (8 * (i 0).val + 7) % 8 = 7; omega), ?_⟩
    show i ∈ ((View.whole main_v18_2).slice (win0_4.rect ⟨8 * (i 0).val + 7, ht⟩)).set
    rw [View.set_slice_whole, Rect.mem_set_unit]
    intro a
    match a with
    | ⟨0, _⟩ =>
      show win0_4.index ⟨8 * (i 0).val + 7, ht⟩ 0 * 1 ≤ (i 0).val ∧ (i 0).val < win0_4.index ⟨8 * (i 0).val + 7, ht⟩ 0 * 1 + 1
      rw [e0']; omega
    | ⟨1, _⟩ =>
      show win0_4.index ⟨8 * (i 0).val + 7, ht⟩ 1 * 16 ≤ (i 1).val ∧ (i 1).val < win0_4.index ⟨8 * (i 0).val + 7, ht⟩ 1 * 16 + 16
      rw [e1]; omega
    | ⟨2, _⟩ =>
      show win0_4.index ⟨8 * (i 0).val + 7, ht⟩ 2 * 1 ≤ (i 2).val ∧ (i 2).val < win0_4.index ⟨8 * (i 0).val + 7, ht⟩ 2 * 1 + 1
      rw [e2]; omega

end Cert.KernelIdeal.RowBlocks
end
-- ==== Proof.Totals.lean ====
import proofs.«177019_j33672543601174_1_alg».proof.Proof.RowBlocks

set_option maxRecDepth 16384

noncomputable section

open Idealize.ShloMosaic Idealize.ShloMosaic.TcCoe Idealize.SL.Sem
open Idealize.ShloMosaic.Pipeline (Dat)

namespace Cert.KernelIdeal.Totals
open Cert.KernelIdeal Cert.KernelIdeal.Gen ValueIdx Cert.BlockSums Cert.KernelIdeal.RowTotals Cert.KernelIdeal.RowBlocks

variable (m : (ℓ : Loc nD τ sig) → Buf (Elt Ideal) ℓ)

/-! ## The three result arrays

At the last step of batch row `b` (step `8b + 7`) each running block is written back as row `b` of its result array;
its entries are then the sums of the row's eight partial sums, that is, sums over all 65536 positions. -/

/-- The predicted mask probabilities: the logistic function of the flattened logits. -/
abbrev probs (c : Dev nD) : S4x100x65536.Idx → EReal := fun i => Ideal.logistic (logitsArr m c i)

theorem step_lt (b : Fin 4) (k : Fin 8) : 8 * b.val + k.val < cfg0.N := by
  have := b.isLt; have := k.isLt; have : cfg0.N = 32 := N_0; omega

/-- The eight partial overlaps of batch row `b` add up to the overlap over all positions. -/
theorem row_overlap (c : Dev nD) (b : Fin 4) (q : Fin 100) (r : Fin 16) :
    ∑ k : Fin 8, stepOverlap m c q r (8 * b.val + k.val) = Areas.overlap (probs m c) (targetsArr m c) (ix3 b q r) := by
  show _ = ∑ n : Fin 65536, probs m c (ix3 b q n) * targetsArr m c (ix3 b r n)
  rw [sum_lanes]
  refine Finset.sum_congr rfl fun k _ => ?_
  refine (stepOverlap_at m c q r ⟨8 * b.val + k.val, step_lt b k⟩).trans ?_
  refine Finset.sum_congr rfl fun j _ => ?_
  rw [logits_block, targets_block]
  rw [Areas.ix3_congr q (a' := b) (c' := ⟨8192 * k.val + j.val, by have := k.isLt; have := j.isLt; omega⟩)
      (by show (8 * b.val + k.val) / 8 = b.val; omega) (by show 8192 * ((8 * b.val + k.val) % 8) + j.val = 8192 * k.val + j.val; omega),
    Areas.ix3_congr r (a' := b) (c' := ⟨8192 * k.val + j.val, by have := k.isLt; have := j.isLt; omega⟩)
      (by show (8 * b.val + k.val) / 8 = b.val; omega) (by show 8192 * ((8 * b.val + k.val) % 8) + j.val = 8192 * k.val + j.val; omega)]

/-- The eight partial prediction areas of batch row `b` add up to the area over all positions. -/
theorem row_pred (c : Dev nD) (b : Fin 4) (q : Fin 100) (v : Fin 1) :
    ∑ k : Fin 8, stepPred m c q (8 * b.val + k.val) = Areas.predArea (probs m c) (ix3 b q v) := by
  show _ = ∑ n : Fin 65536, probs m c (ix3 b q n)
  rw [sum_lanes]
  refine Finset.sum_congr rfl fun k _ => ?_
  refine (stepPred_at m c q ⟨8 * b.val + k.val, step_lt b k⟩).trans ?_
  refine Finset.sum_congr rfl fun j _ => ?_
  rw [logits_block]
  rw [Areas.ix3_congr q (a' := b) (c' := ⟨8192 * k.val + j.val, by have := k.isLt; have := j.isLt; omega⟩)
      (by show (8 * b.val + k.val) / 8 = b.val; omega) (by show 8192 * ((8 * b.val + k.val) % 8) + j.val = 8192 * k.val + j.val; omega)]

/-- The eight partial target areas of batch row `b` add up to the area over all positions. -/
theorem row_tgt (c : Dev nD) (b : Fin 4) (r : Fin 16) (v : Fin 1) :
    ∑ k : Fin 8, stepTgt m c r (8 * b.val + k.val) = Areas.tgtAreaCol (targetsArr m c) (ix3 b r v) := by
  show _ = ∑ n : Fin 65536, targetsArr m c (ix3 b r n)
  rw [sum_lanes]
  refine Finset.sum_congr rfl fun k _ => ?_
  refine (stepTgt_at m c r ⟨8 * b.val + k.val, step_lt b k⟩).trans ?_
  refine Finset.sum_congr rfl fun j _ => ?_
  rw [targets_block]
  rw [Areas.ix3_congr r (a' := b) (c' := ⟨8192 * k.val + j.val, by have := k.isLt; have := j.isLt; omega⟩)
      (by show (8 * b.val + k.val) / 8 = b.val; omega) (by show 8192 * ((8 * b.val + k.val) % 8) + j.val = 8192 * k.val + j.val; omega)]

/-- The overlaps are what the first result array holds after the region. -/
theorem final_overlap (c : Dev nD) : (dats m 0 c).arrAt 2 cfg0.N = Areas.overlap (probs m c) (targetsArr m c) :=
  final_of2 m c (Areas.overlap (probs m c) (targetsArr m c)) fun t h7 u p v =>
    ((carried m c t.val t.isLt).1 u p v).trans ((running_last (stepOverlap m c p v) h7).trans (row_overlap m c ⟨t.val / 8, row_lt t⟩ p v))

/-- The prediction areas are what the second result array holds after the region. -/
theorem final_pred (c : Dev nD) : (dats m 0 c).arrAt 3 cfg0.N = Areas.predArea (probs m c) :=
  final_of3 m c (Areas.predArea (probs m c)) fun t h7 u p v =>
    ((carried m c t.val t.isLt).2.1 u p v).trans ((running_last (stepPred m c p) h7).trans (row_pred m c ⟨t.val / 8, row_lt t⟩ p v))

/-- The target areas are what the third result array holds after the region. -/
theorem final_tgt (c : Dev nD) : (dats m 0 c).arrAt 4 cfg0.N = Areas.tgtAreaCol (targetsArr m c) :=
  final_of4 m c (Areas.tgtAreaCol (targetsArr m c)) fun t h7 u p v =>
    ((carried m c t.val t.isLt).2.2 u p v).trans ((running_last (stepTgt m c p) h7).trans (row_tgt m c ⟨t.val / 8, row_lt t⟩ p v))

end Cert.KernelIdeal.Totals
end
-- ==== Proof.CostTail.lean ====
import Idealize.ShloMosaic.PureOps.Vector
import Idealize.ShloMosaic.PureOps.Ideal

noncomputable section

/-! # From the three areas to the matching cost

With `A[b,q,t]` the overlap, `P[b,q]` the prediction area, `T[b,t]` the target area, `K[b,q,t]` the classification cost
and `ε`, `1`, `2`, `10⁶` the program's constants, both programs finish with the same array operations:

  cost = 1·K + 2·(1 − A / (P + T − A + ε)) + 1·(1 − 2·A / (P + T + ε)),   result = valid ? cost : 10⁶,

`P` a column and `T` a row broadcast over the `[4,100,16]` grid, `valid[b,t]` broadcast over `q`. Stated once over any
float values, so that the two programs' results are this one function of their areas. -/

namespace Cert.CostTail

open Idealize.ShloMosaic

variable {F : FTy → Type} [FloatOps F]

/-- The closing operations of both programs, as one function of the classification cost, the three areas and the
    validity mask. The shape facts are hypotheses: each program supplies its own proofs of them. -/
def cost
    (hcol : (⟨3, ![4, 100, 1]⟩ : Shape).BroadcastsInDim ⟨3, ![4, 100, 16]⟩ (![0, 1, 2] : Fin 3 → Fin 3))
    (hrow : (⟨3, ![4, 1, 16]⟩ : Shape).BroadcastsInDim ⟨3, ![4, 100, 16]⟩ (![0, 1, 2] : Fin 3 → Fin 3))
    (hsc : (⟨0, ![]⟩ : Shape).BroadcastsInDim ⟨3, ![4, 100, 16]⟩ (![] : Fin 0 → Fin 3))
    (hmask : (⟨2, ![4, 16]⟩ : Shape).BroadcastsInDim ⟨3, ![4, 1, 16]⟩ (![0, 2] : Fin 2 → Fin 3))
    (K A : (⟨⟨3, ![4, 100, 16]⟩, .f32⟩ : BufTy).Contents (Elt F))
    (P : (⟨⟨3, ![4, 100, 1]⟩, .f32⟩ : BufTy).Contents (Elt F))
    (T : (⟨⟨3, ![4, 1, 16]⟩, .f32⟩ : BufTy).Contents (Elt F))
    (valid : (⟨⟨2, ![4, 16]⟩, .i1⟩ : BufTy).Contents (Elt F)) :
    (⟨⟨3, ![4, 100, 16]⟩, .f32⟩ : BufTy).Contents (Elt F) :=
  select
    (broadcastInDim ⟨3, ![4, 100, 16]⟩ ![0, 1, 2] hrow (broadcastInDim ⟨3, ![4, 1, 16]⟩ ![0, 2] hmask valid))
    (addf
      (addf
        (mulf (broadcastInDim ⟨3, ![4, 100, 16]⟩ ![] hsc (constant ⟨0, ![]⟩ .f32 0x3F800000#32)) K)
        (mulf (broadcastInDim ⟨3, ![4, 100, 16]⟩ ![] hsc (constant ⟨0, ![]⟩ .f32 0x40000000#32))
          (subf (broadcastInDim ⟨3, ![4, 100, 16]⟩ ![] hsc (constant ⟨0, ![]⟩ .f32 0x3F800000#32))
            (Host.divf A
              (addf
                (subf (addf (broadcastInDim ⟨3, ![4, 100, 16]⟩ ![0, 1, 2] hcol P) (broadcastInDim ⟨3, ![4, 100, 16]⟩ ![0, 1, 2] hrow T)) A)
                (broadcastInDim ⟨3, ![4, 100, 16]⟩ ![] hsc (constant ⟨0, ![]⟩ .f32 0x358637BD#32)))))))
      (mulf (broadcastInDim ⟨3, ![4, 100, 16]⟩ ![] hsc (constant ⟨0, ![]⟩ .f32 0x3F800000#32))
        (subf (broadcastInDim ⟨3, ![4, 100, 16]⟩ ![] hsc (constant ⟨0, ![]⟩ .f32 0x3F800000#32))
          (Host.divf
            (mulf (broadcastInDim ⟨3, ![4, 100, 16]⟩ ![] hsc (constant ⟨0, ![]⟩ .f32 0x40000000#32)) A)
            (addf
              (addf (broadcastInDim ⟨3, ![4, 100, 16]⟩ ![0, 1, 2] hcol P) (broadcastInDim ⟨3, ![4, 100, 16]⟩ ![0, 1, 2] hrow T))
              (broadcastInDim ⟨3, ![4, 100, 16]⟩ ![] hsc (constant ⟨0, ![]⟩ .f32 0x358637BD#32)))))))
    (broadcastInDim ⟨3, ![4, 100, 16]⟩ ![] hsc (id (constant ⟨0, ![]⟩ .f32 0x49742400#32)))

end Cert.CostTail

end
-- ==== Proof.AfterRegion.lean ====
import proofs.«177019_j33672543601174_1_alg».proof.Proof.Gen.KernelIdeal.Frame
import proofs.«177019_j33672543601174_1_alg».proof.Proof.CostTail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

/-! # The host operations after the kernel

After the region the program transposes the target areas from a column to a row and then applies the cost function
to the classification cost (computed before the region), the three result arrays and the validity mask. -/

namespace Cert.KernelIdeal.AfterRegion
open Cert.KernelIdeal Cert.KernelIdeal.Gen

variable {F : FTy → Type} [FloatOps F]

set_option maxRecDepth 8192 in
set_option maxHeartbeats 4000000 in
/-- Whatever the buffers hold when the region is left, the operations after it leave in the result buffer the cost of
    the classification cost, the three result arrays (the target areas transposed to a row) and the validity mask. -/
theorem after_of (W : Valuation τ sig (Elt F)) :
    StableHlo.after (List.flatten [hostOps1, hostOps1_1]) W (Proc.devRef .tc main_v48)
      = CostTail.cost (F := F) bcast_S4x100x1_S4x100x16_0_1_2 bcast_S4x1x16_S4x100x16_0_1_2 bcast_S_S4x100x16 bcast_S4x16_S4x1x16_0_2
          (W (Proc.devRef .tc main_v15)) (W (Proc.devRef .tc main_v18_0)) (W (Proc.devRef .tc main_v18_1))
          (transpose S4x1x16 [0, 2, 1] (W (Proc.devRef .tc main_v18_2)) transposes_S4x16x1_S4x1x16_0_2_1)
          (W (Proc.devRef .tc main_arg4)) := by
  simp only [hostOps1, hostOps1_1, List.flatten_cons, List.flatten_nil, List.append_nil, List.cons_append, List.nil_append]
  after_results_simp
  rfl

variable (m : (ℓ : Loc nD τ sig) → Buf (Elt F) ℓ)

/-- The program's result: the cost of the classification cost the region found, the three arrays the region wrote
    and the validity mask. -/
theorem result_eq (c : Dev nD) :
    Pipeline.afterTail₀ cfgs (dats m) 0 (V0 m) [hostOps1, hostOps1_1] c main_v48
      = CostTail.cost (F := F) bcast_S4x100x1_S4x100x16_0_1_2 bcast_S4x1x16_S4x100x16_0_1_2 bcast_S_S4x100x16 bcast_S4x16_S4x1x16_0_2
          (V m c main_v15) ((dats m 0 c).arrAt 2 cfg0.N) ((dats m 0 c).arrAt 3 cfg0.N)
          (transpose S4x1x16 [0, 2, 1] ((dats m 0 c).arrAt 4 cfg0.N) transposes_S4x16x1_S4x1x16_0_2_1)
          (m ((c : Thread nD τ).loc main_arg4)) := by
  unfold Pipeline.afterTail₀
  rw [after_of]
  have e0 : Pipeline.withArrays (cfgs 0).spec c (V0 m c) (fun w => (dats m 0 c).arrAt w (cfgs 0).N) (Proc.devRef .tc main_v18_0) = (dats m 0 c).arrAt 2 cfg0.N :=
    Pipeline.withArrays_arr spec0 launch0.win.arr_inj c (V0 m c) (fun w => (dats m 0 c).arrAt w (cfgs 0).N) 2
  have e1 : Pipeline.withArrays (cfgs 0).spec c (V0 m c) (fun w => (dats m 0 c).arrAt w (cfgs 0).N) (Proc.devRef .tc main_v18_1) = (dats m 0 c).arrAt 3 cfg0.N :=
    Pipeline.withArrays_arr spec0 launch0.win.arr_inj c (V0 m c) (fun w => (dats m 0 c).arrAt w (cfgs 0).N) 3
  have e2 : Pipeline.withArrays (cfgs 0).spec c (V0 m c) (fun w => (dats m 0 c).arrAt w (cfgs 0).N) (Proc.devRef .tc main_v18_2) = (dats m 0 c).arrAt 4 cfg0.N :=
    Pipeline.withArrays_arr spec0 launch0.win.arr_inj c (V0 m c) (fun w => (dats m 0 c).arrAt w (cfgs 0).N) 4
  have e3 : Pipeline.withArrays (cfgs 0).spec c (V0 m c) (fun w => (dats m 0 c).arrAt w (cfgs 0).N) (Proc.devRef .tc main_v15) = V m c main_v15 :=
    Pipeline.withArrays_of_ne spec0 c (V0 m c) (fun w => (dats m 0 c).arrAt w (cfgs 0).N) main_v15
      (by exact (by decide : ∀ w, Pipeline.arrRef spec0 w ≠ main_v15))
  have e4 : Pipeline.withArrays (cfgs 0).spec c (V0 m c) (fun w => (dats m 0 c).arrAt w (cfgs 0).N) (Proc.devRef .tc main_arg4) = m ((c : Thread nD τ).loc main_arg4) :=
    (Pipeline.withArrays_of_ne spec0 c (V0 m c) (fun w => (dats m 0 c).arrAt w (cfgs 0).N) main_arg4
      (by exact (by decide : ∀ w, Pipeline.arrRef spec0 w ≠ main_arg4))).trans (V_main_arg4 m c)
  rw [e0, e1, e2, e3, e4]

end Cert.KernelIdeal.AfterRegion
end
-- ==== Proof.BeforeRegion.lean ====
import proofs.«177019_j33672543601174_1_alg».proof.Proof.Gen.KernelIdeal.Frame
import proofs.«177019_j33672543601174_1_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

/-! # The host operations before the kernel

Before the region the program computes the classification cost — the softmax of the class logits over their 17
classes, its first 16 columns, the entry at each target's label, negated — by the very operations the reference uses,
and flattens the two mask arrays from `[…,256,256]` to `[…,65536]`. -/

namespace Cert.KernelIdeal.BeforeRegion
open Cert.KernelIdeal Cert.KernelIdeal.Gen

variable {F : FTy → Type} [FloatOps F]
variable (m : (ℓ : Loc nD τ sig) → Buf (Elt F) ℓ)

set_option maxRecDepth 8192 in
set_option maxHeartbeats 4000000 in
/-- The classification cost the region finds is the reference's, as a function of the class logits and the labels. -/
theorem class_cost (c : Dev nD) :
    V m c main_v15 = Cert.ReferenceIdeal.Read.val_main_v15 (F := F) (m ((c : Thread nD τ).loc main_arg0)) (m ((c : Thread nD τ).loc main_arg2)) := by
  dsimp only [V, V0]
  simp only [hostOps0, hostOps0_1, hostOps0_2, List.flatten_cons, List.flatten_nil, List.append_nil, List.cons_append, List.nil_append]
  after_results_simp
  rfl

set_option maxRecDepth 8192 in
set_option maxHeartbeats 4000000 in
/-- The logits the region reads are the mask logits flattened. -/
theorem logits_flat (c : Dev nD) :
    V m c main_v16 = shapeCast S4x100x65536 (m ((c : Thread nD τ).loc main_arg1)) shapeCasts_S4x100x256x256_S4x100x65536 := by
  dsimp only [V, V0]
  simp only [hostOps0, hostOps0_1, hostOps0_2, List.flatten_cons, List.flatten_nil, List.append_nil, List.cons_append, List.nil_append]
  after_results_simp
  rfl

set_option maxRecDepth 8192 in
set_option maxHeartbeats 4000000 in
/-- The targets the region reads are the target masks flattened. -/
theorem targets_flat (c : Dev nD) :
    V m c main_v17 = shapeCast S4x16x65536 (m ((c : Thread nD τ).loc main_arg3)) shapeCasts_S4x16x256x256_S4x16x65536 := by
  dsimp only [V, V0]
  simp only [hostOps0, hostOps0_1, hostOps0_2, List.flatten_cons, List.flatten_nil, List.append_nil, List.cons_append, List.nil_append]
  after_results_simp
  rfl

end Cert.KernelIdeal.BeforeRegion
end
-- ==== Proof.KernelValue.lean ====
import proofs.«177019_j33672543601174_1_alg».proof.Proof.Totals
import proofs.«177019_j33672543601174_1_alg».proof.Proof.AfterRegion
import proofs.«177019_j33672543601174_1_alg».proof.Proof.BeforeRegion
import Idealize.ShloMosaic.Lib.ValueLayout

set_option maxRecDepth 16384

noncomputable section

open Idealize.ShloMosaic Idealize.ShloMosaic.TcCoe Idealize.SL.Sem
open Idealize.ShloMosaic.Pipeline (Dat)

/-! # The kernel program's result as a function of its arguments

Putting the pieces together: the classification cost found before the region is the reference's; the three arrays the
region writes are the overlaps and the two areas of the sigmoid of the flattened logits and of the flattened targets;
the target areas, a column, are transposed to a row; and the operations after the region apply the cost function. -/

namespace Cert.KernelIdeal.KernelValue
open Cert.KernelIdeal Cert.KernelIdeal.Gen ValueIdx

variable (m : (ℓ : Loc nD τ sig) → Buf (Elt Ideal) ℓ) (ρ : Dev nD → PrngReg)

/-- The flattened logits, their sigmoid, and the flattened targets, as functions of the arguments. -/
abbrev logitsOf (c : Dev nD) : S4x100x65536.Idx → EReal :=
  shapeCast S4x100x65536 (m ((c : Thread nD τ).loc main_arg1)) shapeCasts_S4x100x256x256_S4x100x65536
abbrev probsOf (c : Dev nD) : S4x100x65536.Idx → EReal := fun i => Ideal.logistic (logitsOf m c i)
abbrev targetsOf (c : Dev nD) : S4x16x65536.Idx → EReal :=
  shapeCast S4x16x65536 (m ((c : Thread nD τ).loc main_arg3)) shapeCasts_S4x16x256x256_S4x16x65536

theorem probs_eq (c : Dev nD) : Totals.probs m c = probsOf m c := by
  funext i
  show Ideal.logistic (V m c main_v16 i) = _
  rw [BeforeRegion.logits_flat]
theorem targets_eq (c : Dev nD) : RowTotals.targetsArr m c = targetsOf m c := BeforeRegion.targets_flat m c

/-- The column of target areas transposed is the row of target areas. -/
theorem tgt_row (Y : S4x16x65536.Idx → EReal) :
    transpose S4x1x16 [0, 2, 1] (Areas.tgtAreaCol Y) transposes_S4x16x1_S4x1x16_0_2_1 = Areas.tgtAreaRow Y := by
  funext i
  obtain ⟨b, u, r, rfl⟩ : ∃ (b : Fin 4) (u : Fin 1) (r : Fin 16), i = ix3 b u r := ⟨i 0, i 1, i 2, eq_ix3 i⟩
  refine (transpose_ix3_021_apply (Areas.tgtAreaCol Y) transposes_S4x16x1_S4x1x16_0_2_1 b u r).trans ?_
  exact Finset.sum_congr rfl fun n _ => rfl

/-- The result, as a function of the five arguments. -/
def result (c : Dev nD) : Buf (Elt Ideal) ((c : Thread nD τ).loc main_v48) :=
  CostTail.cost (F := Ideal) bcast_S4x100x1_S4x100x16_0_1_2 bcast_S4x1x16_S4x100x16_0_1_2 bcast_S_S4x100x16 bcast_S4x16_S4x1x16_0_2
    (Cert.ReferenceIdeal.Read.val_main_v15 (F := Ideal) (m ((c : Thread nD τ).loc main_arg0)) (m ((c : Thread nD τ).loc main_arg2)))
    (Areas.overlap (probsOf m c) (targetsOf m c)) (Areas.predArea (probsOf m c)) (Areas.tgtAreaRow (targetsOf m c))
    (m ((c : Thread nD τ).loc main_arg4))

theorem tail_result (c : Dev nD) :
    Pipeline.afterTail₀ cfgs (dats m) 0 (V0 m) [hostOps1, hostOps1_1] c main_v48 = result m c := by
  rw [AfterRegion.result_eq, BeforeRegion.class_cost, Totals.final_overlap, Totals.final_pred, Totals.final_tgt, tgt_row,
    probs_eq, targets_eq]
  rfl

/-- Every weakly fair execution of the program terminates with the result buffer at `result` and the arguments unchanged. -/
theorem run : θ_run defs (onTc (τ := τ) (main (F := Ideal))) ⟨m, fun _ => 0, ρ⟩ fun r => ∀ c : Dev nD,
      r.2.mem ((c.tc : Thread nD τ).loc main_v48) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v48 (Pipeline.mem_restRefs_of main_v48 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue
end
-- ==== Proof.RefValue.lean ====
import proofs.«177019_j33672543601174_1_alg».proof.Defs
import proofs.«177019_j33672543601174_1_alg».proof.Proof.Gen.ReferenceIdeal.Read
import proofs.«177019_j33672543601174_1_alg».proof.Proof.Areas
import proofs.«177019_j33672543601174_1_alg».proof.Proof.CostTail

set_option maxRecDepth 16384

noncomputable section

open Idealize.ShloMosaic Idealize.ShloMosaic.TcCoe Idealize.SL.Sem

/-! # The reference computes the cost of the three areas

The reference applies `1 / (1 + exp(−x))` to the logits and flattens each mask to 65536 positions; its matrix
product over the positions is the overlap, and its two sums over the positions are the areas. Its closing operations
are the cost function of those areas. -/

namespace Cert.ReferenceIdeal.RefValue

open Cert.ReferenceIdeal Cert.ReferenceIdeal.Gen Cert.ReferenceIdeal.Read ValueIdx

/-- The word `0x3F800000` is the real number one. -/
theorem one_f32 : Ideal.ofBits .f32 0x3F800000#32 = 1 := IdealRules.sign_bit.ideal_onePat .f32

/-- `1 / (1 + exp(−x))` as the host spells it is the logistic function, at every extended real. -/
theorem sigmoid_apply (x1 : (⟨S4x100x256x256, .f32⟩ : BufTy).Contents (Elt Ideal)) (k : S4x100x256x256.Idx) :
    val_main_v21 (F := Ideal) x1 k = Ideal.logistic (x1 k) := by
  rw [val_main_v21_apply, val_main_v20_apply, val_main_cst_3_apply, val_main_v19_apply, val_main_v18_apply,
    val_main_cst_2_apply, val_main_v17_apply, val_main_v16_apply]
  show Ideal.div (Ideal.ofBits .f32 0x3F800000#32) (Ideal.ofBits .f32 0x3F800000#32 + Ideal.exp (-(x1 k))) = _
  rw [one_f32]
  rfl

/-- The flattened logits, and the predicted mask probabilities as a function of them. -/
abbrev logitsArr (x1 : (⟨S4x100x256x256, .f32⟩ : BufTy).Contents (Elt Ideal)) : S4x100x65536.Idx → EReal :=
  shapeCast S4x100x65536 x1 shapeCasts_S4x100x256x256_S4x100x65536
abbrev probs (x1 : (⟨S4x100x256x256, .f32⟩ : BufTy).Contents (Elt Ideal)) : S4x100x65536.Idx → EReal :=
  fun i => Ideal.logistic (logitsArr x1 i)
abbrev targetsArr (x3 : (⟨S4x16x256x256, .f32⟩ : BufTy).Contents (Elt Ideal)) : S4x16x65536.Idx → EReal :=
  shapeCast S4x16x65536 x3 shapeCasts_S4x16x256x256_S4x16x65536

/-- Flattening commutes with the entrywise sigmoid. -/
theorem probs_eq (x1 : (⟨S4x100x256x256, .f32⟩ : BufTy).Contents (Elt Ideal)) : val_main_v22 (F := Ideal) x1 = probs x1 := by
  funext i
  unfold val_main_v22 probs logitsArr shapeCast
  exact sigmoid_apply x1 _

theorem zero_f32 : (val_main_cst_4 (F := Ideal)) (Shape.Idx.first h_S_) = 0 := Ideal.ofBits_zero_f32
theorem zero_f32' : (val_main_cst_5 (F := Ideal)) (Shape.Idx.first h_S_) = 0 := Ideal.ofBits_zero_f32

/-- The reference's matrix product is the overlap. -/
theorem overlap_eq (x1 : (⟨S4x100x256x256, .f32⟩ : BufTy).Contents (Elt Ideal)) (x3 : (⟨S4x16x256x256, .f32⟩ : BufTy).Contents (Elt Ideal)) :
    val_main_v24 (F := Ideal) x1 x3 = Areas.overlap (probs x1) (targetsArr x3) := by
  funext i
  rw [val_main_v24_apply, probs_eq]
  refine Finset.sum_congr rfl fun k _ => ?_
  have el : lidx_main_v24 i k = ix3 (i 0) (i 1) k := funext fun a => Fin.ext (by match a with | ⟨0, _⟩ => rfl | ⟨1, _⟩ => rfl | ⟨2, _⟩ => rfl)
  have er : ridx_main_v24 i k = ix3 (i 0) (i 2) k := funext fun a => Fin.ext (by match a with | ⟨0, _⟩ => rfl | ⟨1, _⟩ => rfl | ⟨2, _⟩ => rfl)
  rw [el, er]
  rfl

/-- The reference's sum of the probabilities over the positions, kept as a column, is the prediction area. -/
theorem pred_eq (x1 : (⟨S4x100x256x256, .f32⟩ : BufTy).Contents (Elt Ideal)) :
    val_main_v26 (F := Ideal) x1 = Areas.predArea (probs x1) := by
  funext i
  rw [val_main_v26_apply, val_main_v25_apply, zero_f32, zero_add, probs_eq]
  refine Finset.sum_congr rfl fun k _ => ?_
  have e : idx_main_v25 (idx_main_v26 i) k = ix3 (i 0) (i 1) k := funext fun a => Fin.ext (by match a with | ⟨0, _⟩ => rfl | ⟨1, _⟩ => rfl | ⟨2, _⟩ => rfl)
  rw [e]
  rfl

/-- The reference's sum of the targets over the positions, laid out as a row, is the target area. -/
theorem tgt_eq (x3 : (⟨S4x16x256x256, .f32⟩ : BufTy).Contents (Elt Ideal)) :
    val_main_v28 (F := Ideal) x3 = Areas.tgtAreaRow (targetsArr x3) := by
  funext i
  rw [val_main_v28_apply, val_main_v27_apply, zero_f32', zero_add]
  refine Finset.sum_congr rfl fun k _ => ?_
  have e : idx_main_v27 (idx_main_v28 i) k = ix3 (i 0) (i 2) k := funext fun a => Fin.ext (by match a with | ⟨0, _⟩ => rfl | ⟨1, _⟩ => rfl | ⟨2, _⟩ => rfl)
  rw [e]
  rfl

/-- The reference's result is the cost of its classification cost, the three areas and the validity mask. -/
theorem result_eq (x0 : (⟨S4x100x17, .f32⟩ : BufTy).Contents (Elt Ideal)) (x1 : (⟨S4x100x256x256, .f32⟩ : BufTy).Contents (Elt Ideal))
    (x2 : (⟨S4x16, .i32⟩ : BufTy).Contents (Elt Ideal)) (x3 : (⟨S4x16x256x256, .f32⟩ : BufTy).Contents (Elt Ideal))
    (x4 : (⟨S4x16, .i1⟩ : BufTy).Contents (Elt Ideal)) :
    val_main_v57 (F := Ideal) x0 x1 x2 x3 x4
      = CostTail.cost (F := Ideal) bcast_S4x100x1_S4x100x16_0_1_2 bcast_S4x1x16_S4x100x16_0_1_2 bcast_S_S4x100x16 bcast_S4x16_S4x1x16_0_2
          (val_main_v15 (F := Ideal) x0 x2) (Areas.overlap (probs x1) (targetsArr x3)) (Areas.predArea (probs x1))
          (Areas.tgtAreaRow (targetsArr x3)) x4 := by
  rw [← overlap_eq, ← pred_eq, ← tgt_eq]
  rfl

end Cert.ReferenceIdeal.RefValue

end
-- ==== Proof.lean ====
/-
  The matching cost of a batch of predicted masks against target masks: the Pallas program and its jnp reference
  are equal over the extended reals.

  Both programs compute, for a batch of 4, 100 predictions and 16 targets over 65536 mask positions,

    cost[b,q,t] = valid[b,t] ? 1·K[b,q,t] + 2·(1 − A / (P + T − A + ε)) + 1·(1 − 2·A / (P + T + ε)) : 10⁶,

  where K is the classification cost (the negated softmax probability of the target's label), A[b,q,t] = Σ_n σ(x[b,q,n])·y[b,t,n]
  the overlap, P[b,q] = Σ_n σ(x[b,q,n]) the prediction area and T[b,t] = Σ_n y[b,t,n] the target area, σ the logistic
  function. K and the closing operations are the same host operations in both programs. The programs differ in how
  A, P and T are formed: the reference sums over all 65536 positions at once (one matrix product and two sums, of
  `1 / (1 + exp(−x))`); the kernel walks the positions in eight blocks of 8192 per batch row, keeping three running
  blocks that it zeroes at the first block and writes back after the last. Sums of extended reals commute and
  associate, so the eight partial sums add up to the whole sum, and `1 / (1 + exp(−x))` is the logistic function at
  every extended real; no input needs to be finite.

  The modules: `Areas` (the three sums), `CostTail` (the closing operations as one function), `BlockSums` (a sum
  over 65536 positions as eight blocks; running sums), `Carried` (what one grid step leaves in the running blocks),
  `StepSums` (a step's update entry by entry), `RowTotals` (the running blocks after every step, by induction),
  `RowBlocks` (from the last step of each batch row to the result arrays), `Totals` (the result arrays are the three
  sums), `BeforeRegion` / `AfterRegion` (the host operations around the kernel), `KernelValue` (the kernel program's
  result), `RefValue` (the reference's result).
-/
import proofs.«177019_j33672543601174_1_alg».proof.Defs
import proofs.«177019_j33672543601174_1_alg».proof.Proof.Gen.Kernel
import proofs.«177019_j33672543601174_1_alg».proof.Proof.Gen.Kernel.Skeleton
import proofs.«177019_j33672543601174_1_alg».proof.Proof.Gen.Kernel.Launch
import proofs.«177019_j33672543601174_1_alg».proof.Proof.Gen.Kernel.Points
import proofs.«177019_j33672543601174_1_alg».proof.Proof.Gen.Kernel.Frame
import proofs.«177019_j33672543601174_1_alg».proof.Proof.Gen.KernelIdeal
import proofs.«177019_j33672543601174_1_alg».proof.Proof.Gen.KernelIdeal.Skeleton
import proofs.«177019_j33672543601174_1_alg».proof.Proof.Gen.KernelIdeal.Launch
import proofs.«177019_j33672543601174_1_alg».proof.Proof.Gen.KernelIdeal.Points
import proofs.«177019_j33672543601174_1_alg».proof.Proof.Gen.KernelIdeal.Frame
import proofs.«177019_j33672543601174_1_alg».proof.Proof.Gen.ReferenceIdeal
import proofs.«177019_j33672543601174_1_alg».proof.Proof.Gen.ReferenceIdeal.Run
import proofs.«177019_j33672543601174_1_alg».proof.Proof.Gen.ReferenceIdeal.Read
import proofs.«177019_j33672543601174_1_alg».proof.Proof.Gen.Pre_finite_inputs
import proofs.«177019_j33672543601174_1_alg».proof.Proof.KernelValue
import proofs.«177019_j33672543601174_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- Each program runs to the end without a fault and leaves its arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the cost of the same classification cost, the same three sums
    and the same validity mask. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
